-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg6 : FVec F S128 .f32) (main_arg7 : FVec F S128x16 .f32) (main_arg8 : FVec F S16 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x16 .f32 := Host.absf main_arg7
  let main_cst_8 : FVec F S_ .f32 := constant S_ .f32 0x7F800000#32
  let main_v25 : FVec F S128x16 .f32 := broadcastInDim S128x16 ![] bcast_S_S128x16 main_cst_8
  let main_v26 : IVec S128x16 1 := cmpf .olt main_v24 main_v25
  let main_c_9 : IVec S_ 1 := constantI S_ 1 1#1
  let main_v27 : IVec S_ 1 := (fun x v => Host.reduce IntOp.andi x v reducesTo_S128x16_S_d0_1 h_S_) main_v26 main_c_9
  let main_v28 : IVec S_ 1 := andi main_v23 main_v27
  let main_v29 : FVec F S16 .f32 := Host.absf main_arg8
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : IVec S50000 32) (main_arg3 : FVec F S128x128 .f32) (main_arg4 : FVec F S128 .f32) (main_arg5 : FVec F S128x128 .f32) (main_arg6 : FVec F S128 .f32) (main_arg7 : FVec F S128x16 .f32) (main_arg8 : FVec F S16 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S850000x128 : Shape := ⟨2, ![850000, 128]⟩
abbrev S1x128 : Shape := ⟨2, ![1, 128]⟩
abbrev S64x128 : Shape := ⟨2, ![64, 128]⟩
abbrev S64 : Shape := ⟨1, ![64]⟩
abbrev S64x1 : Shape := ⟨2, ![64, 1]⟩
abbrev S1x16 : Shape := ⟨2, ![1, 16]⟩
abbrev S64x16 : Shape := ⟨2, ![64, 16]⟩
abbrev S5000x128 : Shape := ⟨2, ![5000, 128]⟩
abbrev S5000x1 : Shape := ⟨2, ![5000, 1]⟩

abbrev nBuf : Space → Nat
  | .hbm => 80
  | .vmem => 26
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x16, .f32⟩
  | .hbm, ⟨8, _⟩ => ⟨S16, .f32⟩
  | .hbm, ⟨9, _⟩ => ⟨S50000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S1x800000, .i32⟩
  | .hbm, ⟨14, _⟩ => ⟨S800000, .i32⟩
  | .hbm, ⟨15, _⟩ => ⟨S850000, .i32⟩
  | .hbm, ⟨16, _⟩ => ⟨S_, .f32⟩
  | .hbm, ⟨17, _⟩ => ⟨S850000, .f32⟩
  | .hbm, ⟨18, _⟩ => ⟨S_, .f32⟩
  | .hbm, ⟨19, _⟩ => ⟨S50000, .f32⟩
  | .hbm, ⟨20, _⟩ => ⟨S850000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000x1, .f32⟩
  | .hbm, ⟨31, _⟩ => ⟨S50000x128, .f32⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000x128, .f32⟩
  | .hbm, ⟨41, _⟩ => ⟨S_, .f32⟩
  | .hbm, ⟨42, _⟩ => ⟨S50000x128, .f32⟩
  | .hbm, ⟨43, _⟩ => ⟨S850000x1, .i32⟩
  | .hbm, ⟨44, _⟩ => ⟨S50000x128, .f32⟩
  | .hbm, ⟨45, _⟩ => ⟨S1x128, .f32⟩
  | .hbm, ⟨46, _⟩ => ⟨S50000x128, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S_, .f32⟩
  | .hbm, ⟨57, _⟩ => ⟨S50000x128, .f32⟩
  | .hbm, ⟨58, _⟩ => ⟨S850000x1, .i32⟩
  | .hbm, ⟨59, _⟩ => ⟨S50000x128, .f32⟩
  | .hbm, ⟨60, _⟩ => ⟨S1x128, .f32⟩
  | .hbm, ⟨61, _⟩ => ⟨S50000x128, .f32⟩
  | .hbm, ⟨62, _⟩ => ⟨S_, .f32⟩
  | .hbm, ⟨63, _⟩ => ⟨S64x128, .f32⟩
  | .hbm, ⟨64, _⟩ => ⟨S50000x1, .i32⟩
  | .hbm, ⟨65, _⟩ => ⟨S64x128, .f32⟩
  | .hbm, ⟨66, _⟩ => ⟨S_, .f32⟩
  | .hbm, ⟨67, _⟩ => ⟨S50000, .f32⟩
  | .hbm, ⟨68, _⟩ => ⟨S_, .f32⟩
  | .hbm, ⟨69, _⟩ => ⟨S64, .f32⟩
  | .hbm, ⟨70, _⟩ => ⟨S50000x1, .i32⟩
  | .hbm, ⟨71, _⟩ => ⟨S64, .f32⟩
  | .hbm, ⟨72, _⟩ => ⟨S_, .f32⟩
  | .hbm, ⟨73, _⟩ => ⟨S64, .f32⟩
  | .hbm, ⟨74, _⟩ => ⟨S64, .f32⟩
  | .hbm, ⟨75, _⟩ => ⟨S64x1, .f32⟩
  | .hbm, ⟨76, _⟩ => ⟨S64x128, .f32⟩
  | .hbm, ⟨77, _⟩ => ⟨S64x128, .f32⟩
  | .hbm, ⟨78, _⟩ => ⟨S1x16, .f32⟩
  | .hbm, ⟨79, _⟩ => ⟨S64x16, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x1, .f32⟩
  | .local _ .vmem, ⟨18, _⟩ => ⟨S5000x1, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S64x128, .f32⟩
  | .local _ .vmem, ⟨23, _⟩ => ⟨S128x16, .f32⟩
  | .local _ .vmem, ⟨24, _⟩ => ⟨S1x16, .f32⟩
  | .local _ .vmem, ⟨25, _⟩ => ⟨S64x16, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_cst : Ref sig .tc := ⟨.hbm, 16, rfl⟩
abbrev main_call0_v7 : Ref sig .tc := ⟨.hbm, 17, rfl⟩
abbrev main_call0_cst_0 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_cst_1 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_call0_cst_2 : Ref sig .tc := ⟨.hbm, 26, rfl⟩
abbrev main_call0_call0_v0 : Ref sig .tc := ⟨.hbm, 27, rfl⟩
abbrev main_call0_call0_v1 : Ref sig .tc := ⟨.hbm, 28, rfl⟩
abbrev main_call0_v14 : Ref sig .tc := ⟨.hbm, 29, rfl⟩
abbrev main_call0_v15 : Ref sig .tc := ⟨.hbm, 30, rfl⟩
abbrev main_call0_v16 : Ref sig .tc := ⟨.hbm, 31, rfl⟩
abbrev main_call0_c : Ref sig .tc := ⟨.hbm, 32, rfl⟩
abbrev main_call0_v17 : Ref sig .tc := ⟨.hbm, 33, rfl⟩
abbrev main_call0_v18 : Ref sig .tc := ⟨.hbm, 34, rfl⟩
abbrev main_call0_c_3 : Ref sig .tc := ⟨.hbm, 35, rfl⟩
abbrev main_call0_v19 : Ref sig .tc := ⟨.hbm, 36, rfl⟩
abbrev main_call0_v20 : Ref sig .tc := ⟨.hbm, 37, rfl⟩
abbrev main_call0_v21 : Ref sig .tc := ⟨.hbm, 38, rfl⟩
abbrev main_call0_v22 : Ref sig .tc := ⟨.hbm, 39, rfl⟩
abbrev main_call0_v23 : Ref sig .tc := ⟨.hbm, 40, rfl⟩
abbrev main_call0_cst_4 : Ref sig .tc := ⟨.hbm, 41, rfl⟩
abbrev main_call0_v24 : Ref sig .tc := ⟨.hbm, 42, rfl⟩
abbrev main_call0_v25 : Ref sig .tc := ⟨.hbm, 43, rfl⟩
abbrev main_call0_v26 : Ref sig .tc := ⟨.hbm, 44, rfl⟩
abbrev main_call0_v27 : Ref sig .tc := ⟨.hbm, 45, rfl⟩
abbrev main_call0_v28 : Ref sig .tc := ⟨.hbm, 46, rfl⟩
abbrev main_call0_c_5 : Ref sig .tc := ⟨.hbm, 47, rfl⟩
abbrev main_call0_v29 : Ref sig .tc := ⟨.hbm, 48, rfl⟩
abbrev main_call0_v30 : Ref sig .tc := ⟨.hbm, 49, rfl⟩
abbrev main_call0_c_6 : Ref sig .tc := ⟨.hbm, 50, rfl⟩
abbrev main_call0_v31 : Ref sig .tc := ⟨.hbm, 51, rfl⟩
abbrev main_call0_v32 : Ref sig .tc := ⟨.hbm, 52, rfl⟩
abbrev main_call0_v33 : Ref sig .tc := ⟨.hbm, 53, rfl⟩
abbrev main_call0_v34 : Ref sig .tc := ⟨.hbm, 54, rfl⟩
abbrev main_call0_v35 : Ref sig .tc := ⟨.hbm, 55, rfl⟩
abbrev main_call0_cst_7 : Ref sig .tc := ⟨.hbm, 56, rfl⟩
abbrev main_call0_v36 : Ref sig .tc := ⟨.hbm, 57, rfl⟩
abbrev main_call0_v37 : Ref sig .tc := ⟨.hbm, 58, rfl⟩
abbrev main_call0_v38 : Ref sig .tc := ⟨.hbm, 59, rfl⟩
abbrev main_call0_v39 : Ref sig .tc := ⟨.hbm, 60, rfl⟩
abbrev main_call0_v40 : Ref sig .tc := ⟨.hbm, 61, rfl⟩
abbrev main_call0_cst_8 : Ref sig .tc := ⟨.hbm, 62, rfl⟩
abbrev main_call0_v41 : Ref sig .tc := ⟨.hbm, 63, rfl⟩
abbrev main_call0_v42 : Ref sig .tc := ⟨.hbm, 64, rfl⟩
abbrev main_call0_v43 : Ref sig .tc := ⟨.hbm, 65, rfl⟩
abbrev main_call0_cst_9 : Ref sig .tc := ⟨.hbm, 66, rfl⟩
abbrev main_call0_v44 : Ref sig .tc := ⟨.hbm, 67, rfl⟩
abbrev main_call0_cst_10 : Ref sig .tc := ⟨.hbm, 68, rfl⟩
abbrev main_call0_v45 : Ref sig .tc := ⟨.hbm, 69, rfl⟩
abbrev main_call0_v46 : Ref sig .tc := ⟨.hbm, 70, rfl⟩
abbrev main_call0_v47 : Ref sig .tc := ⟨.hbm, 71, rfl⟩
abbrev main_call0_cst_11 : Ref sig .tc := ⟨.hbm, 72, rfl⟩
abbrev main_call0_v48 : Ref sig .tc := ⟨.hbm, 73, rfl⟩
abbrev main_call0_v49 : Ref sig .tc := ⟨.hbm, 74, rfl⟩
abbrev main_call0_v50 : Ref sig .tc := ⟨.hbm, 75, rfl⟩
abbrev main_call0_v51 : Ref sig .tc := ⟨.hbm, 76, rfl⟩
abbrev main_call0_v52 : Ref sig .tc := ⟨.hbm, 77, rfl⟩
abbrev main_call0_v53 : Ref sig .tc := ⟨.hbm, 78, rfl⟩
abbrev main_v0 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc3_stg0_0 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg3_0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21
abbrev cc3_sem0_0 : DmaSem sig := 22
abbrev cc3_sem1_0 : DmaSem sig := 23
abbrev cc3_sem2_0 : DmaSem sig := 24
abbrev cc3_sem3_0 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S64x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S128x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x16 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x16 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S50000_S50000x1 : S50000.ShapeCasts S50000x1
  bcast_S_S50000x128 : S_.BroadcastsInDim S50000x128 (![] : Fin 0 → Fin S50000x128.rank)
  shapeCasts_S128_S1x128 : S128.ShapeCasts S1x128
  bcast_S_S64x128 : S_.BroadcastsInDim S64x128 (![] : Fin 0 → Fin S64x128.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  shapeCasts_S16_S1x16 : S16.ShapeCasts S1x16
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128x16_S128x16_0_0 : ∀ a, (![0, 0] : Fin 2 → Nat) a + S128x16.size a ≤ S128x16.size a
  h_S128x16 : 0 < S128x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S64x16 : S1x16.Broadcasts S64x16
  inb_S64x16_S64x16_0_0 : ∀ a, (![0, 0] : Fin 2 → Nat) a + S64x16.size a ≤ S64x16.size a
  h_S64x16 : 0 < S64x16.numel
  scatter_S50000_S850000x1_S850000_n_0_0_1_wf : ScatterDims.WF S50000 S850000x1 S850000 [] [0] [0] 1
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S5000x128_S128x128_S5000x128_1_0_0_1_n_n_wf : DotDims.WF S5000x128 S128x128 S5000x128 [1] [0] [0] [1] [] []
  dot_S64x128_S128x16_S64x16_1_0_0_1_n_n_wf : DotDims.WF S64x128 S128x16 S64x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S64x128.size a ≤ S64x128.size a
  hwx3_0 : ∀ i : grid3.Coords, EltTy.bits .f32 = 32 ∨ (Rect.block (s := S64x128) S64x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x16.size a ≤ S128x16.size a
  hwx3_1 : ∀ i : grid3.Coords, EltTy.bits .f32 = 32 ∨ (Rect.block (s := S128x16) S128x16.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x16.size a ≤ S1x16.size a
  hwx3_2 : ∀ i : grid3.Coords, EltTy.bits .f32 = 32 ∨ (Rect.block (s := S1x16) S1x16.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x16.size a ≤ S64x16.size a
  hwx3_3 : ∀ i : grid3.Coords, EltTy.bits .f32 = 32 ∨ (Rect.block (s := S64x16) S64x16.size (cc3_transform_3 i) (hinb3_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S64x128_S128x16_S64x16_1_0_0_1_n_n : DotDims S64x128 S128x16 S64x16 where
  lhsContracting := [1]
  rhsContracting := [0]
  lhsNonContracting := [0]
  rhsNonContracting := [1]
  lhsBatch := []
  rhsBatch := []
  wf := dot_S64x128_S128x16_S64x16_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v16) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_call0_v26) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v27) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v28) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_call0_v38) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v15) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_call0_v39) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_call0_v40) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_call0_v52) S64x128.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S128x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_call0_v53) S1x16.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v0) S64x16.size cc3_transform_3 reads3_3 true true 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S64x128 : Shape := ⟨2, ![64, 128]⟩
abbrev S50000x1 : Shape := ⟨2, ![50000, 1]⟩
abbrev S64 : Shape := ⟨1, ![64]⟩
abbrev S64x1 : Shape := ⟨2, ![64, 1]⟩
abbrev S64x16 : Shape := ⟨2, ![64, 16]⟩
abbrev S1x16 : Shape := ⟨2, ![1, 16]⟩

abbrev nBuf : Space → Nat
  | .hbm => 134
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S128x128, .f32⟩
  | 6 => ⟨S128, .f32⟩
  | 7 => ⟨S128x16, .f32⟩
  | 8 => ⟨S16, .f32⟩
  | 9 => ⟨S50000, .i32⟩
  | 10 => ⟨S1x800000, .i32⟩
  | 11 => ⟨S800000, .i32⟩
  | 12 => ⟨S850000, .i32⟩
  | 13 => ⟨S1x800000, .i32⟩
  | 14 => ⟨S800000, .i32⟩
  | 15 => ⟨S850000, .i32⟩
  | 16 => ⟨S_, .f32⟩
  | 17 => ⟨S850000, .f32⟩
  | 18 => ⟨S_, .f32⟩
  | 19 => ⟨S50000, .f32⟩
  | 20 => ⟨S850000x1, .i32⟩
  | 21 => ⟨S50000, .f32⟩
  | 22 => ⟨S_, .f32⟩
  | 23 => ⟨S50000, .f32⟩
  | 24 => ⟨S50000, .i1⟩
  | 25 => ⟨S50000, .f32⟩
  | 26 => ⟨S_, .f32⟩
  | 27 => ⟨S_, .f32⟩
  | 28 => ⟨S50000, .f32⟩
  | 29 => ⟨S50000, .f32⟩
  | 30 => ⟨S50000x128, .f32⟩
  | 31 => ⟨S_, .i32⟩
  | 32 => ⟨S850000, .i32⟩
  | 33 => ⟨S850000, .i1⟩
  | 34 => ⟨S_, .i32⟩
  | 35 => ⟨S850000, .i32⟩
  | 36 => ⟨S850000, .i32⟩
  | 37 => ⟨S850000, .i32⟩
  | 38 => ⟨S850000x1, .i32⟩
  | 39 => ⟨S850000, .f32⟩
  | 40 => ⟨S_, .i32⟩
  | 41 => ⟨S850000, .i32⟩
  | 42 => ⟨S850000, .i1⟩
  | 43 => ⟨S_, .i32⟩
  | 44 => ⟨S850000, .i32⟩
  | 45 => ⟨S850000, .i32⟩
  | 46 => ⟨S850000, .i32⟩
  | 47 => ⟨S850000x1, .i32⟩
  | 48 => ⟨S850000, .f32⟩
  | 49 => ⟨S850000, .f32⟩
  | 50 => ⟨S_, .i32⟩
  | 51 => ⟨S850000, .i32⟩
  | 52 => ⟨S850000, .i1⟩
  | 53 => ⟨S_, .i32⟩
  | 54 => ⟨S850000, .i32⟩
  | 55 => ⟨S850000, .i32⟩
  | 56 => ⟨S850000, .i32⟩
  | 57 => ⟨S850000x1, .i32⟩
  | 58 => ⟨S850000x128, .f32⟩
  | 59 => ⟨S850000x1, .f32⟩
  | 60 => ⟨S850000x128, .f32⟩
  | 61 => ⟨S850000x128, .f32⟩
  | 62 => ⟨S_, .f32⟩
  | 63 => ⟨S50000x128, .f32⟩
  | 64 => ⟨S850000x1, .i32⟩
  | 65 => ⟨S50000x128, .f32⟩
  | 66 => ⟨S1x128, .f32⟩
  | 67 => ⟨S50000x128, .f32⟩
  | 68 => ⟨S50000x128, .f32⟩
  | 69 => ⟨S_, .f32⟩
  | 70 => ⟨S50000x128, .f32⟩
  | 71 => ⟨S50000x128, .f32⟩
  | 72 => ⟨S50000x128, .f32⟩
  | 73 => ⟨S_, .i32⟩
  | 74 => ⟨S850000, .i32⟩
  | 75 => ⟨S850000, .i1⟩
  | 76 => ⟨S_, .i32⟩
  | 77 => ⟨S850000, .i32⟩
  | 78 => ⟨S850000, .i32⟩
  | 79 => ⟨S850000, .i32⟩
  | 80 => ⟨S850000x1, .i32⟩
  | 81 => ⟨S850000, .f32⟩
  | 82 => ⟨S_, .i32⟩
  | 83 => ⟨S850000, .i32⟩
  | 84 => ⟨S850000, .i1⟩
  | 85 => ⟨S_, .i32⟩
  | 86 => ⟨S850000, .i32⟩
  | 87 => ⟨S850000, .i32⟩
  | 88 => ⟨S850000, .i32⟩
  | 89 => ⟨S850000x1, .i32⟩
  | 90 => ⟨S850000, .f32⟩
  | 91 => ⟨S850000, .f32⟩
  | 92 => ⟨S_, .i32⟩
  | 93 => ⟨S850000, .i32⟩
  | 94 => ⟨S850000, .i1⟩
  | 95 => ⟨S_, .i32⟩
  | 96 => ⟨S850000, .i32⟩
  | 97 => ⟨S850000, .i32⟩
  | 98 => ⟨S850000, .i32⟩
  | 99 => ⟨S850000x1, .i32⟩
  | 100 => ⟨S850000x128, .f32⟩
  | 101 => ⟨S850000x1, .f32⟩
  | 102 => ⟨S850000x128, .f32⟩
  | 103 => ⟨S850000x128, .f32⟩
  | 104 => ⟨S_, .f32⟩
  | 105 => ⟨S50000x128, .f32⟩
  | 106 => ⟨S850000x1, .i32⟩
  | 107 => ⟨S50000x128, .f32⟩
  | 108 => ⟨S1x128, .f32⟩
  | 109 => ⟨S50000x128, .f32⟩
  | 110 => ⟨S50000x128, .f32⟩
  | 111 => ⟨S_, .f32⟩
  | 112 => ⟨S50000x128, .f32⟩
  | 113 => ⟨S50000x128, .f32⟩
  | 114 => ⟨S_, .f32⟩
  | 115 => ⟨S64x128, .f32⟩
  | 116 => ⟨S50000x1, .i32⟩
  | 117 => ⟨S64x128, .f32⟩
  | 118 => ⟨S_, .f32⟩
  | 119 => ⟨S50000, .f32⟩
  | 120 => ⟨S_, .f32⟩
  | 121 => ⟨S64, .f32⟩
  | 122 => ⟨S50000x1, .i32⟩
  | 123 => ⟨S64, .f32⟩
  | 124 => ⟨S_, .f32⟩
  | 125 => ⟨S64, .f32⟩
  | 126 => ⟨S64, .f32⟩
  | 127 => ⟨S64x1, .f32⟩
  | _ => ⟨S50000x128, .f32⟩

abbrev hbmTy0_1 (i : Nat) : BufTy := match i % 128 with
  | 0 => ⟨S64x128, .f32⟩
  | 1 => ⟨S64x128, .f32⟩
  | 2 => ⟨S64x16, .f32⟩
  | 3 => ⟨S1x16, .f32⟩
  | 4 => ⟨S64x16, .f32⟩
  | 5 => ⟨S64x16, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_c_9 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_c_11 : Ref sig .tc := ⟨.hbm, 82, rfl⟩
abbrev main_v56 : Ref sig .tc := ⟨.hbm, 83, rfl⟩
abbrev main_v57 : Ref sig .tc := ⟨.hbm, 84, rfl⟩
abbrev main_c_12 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_c_13 : Ref sig .tc := ⟨.hbm, 92, rfl⟩
abbrev main_v64 : Ref sig .tc := ⟨.hbm, 93, rfl⟩
abbrev main_v65 : Ref sig .tc := ⟨.hbm, 94, rfl⟩
abbrev main_c_14 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_15 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_call2_cst : Ref sig .tc := ⟨.hbm, 111, rfl⟩
abbrev main_call2_v0 : Ref sig .tc := ⟨.hbm, 112, rfl⟩
abbrev main_v80 : Ref sig .tc := ⟨.hbm, 113, rfl⟩
abbrev main_cst_16 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_cst_17 : Ref sig .tc := ⟨.hbm, 118, rfl⟩
abbrev main_v84 : Ref sig .tc := ⟨.hbm, 119, rfl⟩
abbrev main_cst_18 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_cst_19 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S64x128 : S_.BroadcastsInDim S64x128 (![] : Fin 0 → Fin S64x128.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S16_S1x16_1 : S16.BroadcastsInDim S1x16 (![1] : Fin 1 → Fin S1x16.rank)
  bcast_S1x16_S64x16_0_1 : S1x16.BroadcastsInDim S64x16 (![0, 1] : Fin 2 → Fin S64x16.rank)
  scatter_S50000_S850000x1_S850000_n_0_0_1_wf : ScatterDims.WF S50000 S850000x1 S850000 [] [0] [0] 1
  dot_S50000x128_S128x128_S50000x128_1_0_0_1_n_n_wf : DotDims.WF S50000x128 S128x128 S50000x128 [1] [0] [0] [1] [] []
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x16_S64x16_1_0_0_1_n_n_wf : DotDims.WF S64x128 S128x16 S64x16 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x16_S64x16_1_0_0_1_n_n : DotDims S64x128 S128x16 S64x16 where
  lhsContracting := [1]
  rhsContracting := [0]
  lhsNonContracting := [0]
  rhsNonContracting := [1]
  lhsBatch := []
  rhsBatch := []
  wf := dot_S64x128_S128x16_S64x16_1_0_0_1_n_n_wf

class Facts : Prop extends Facts₀ where

variable [Facts]
-- ==== Proof.KRun.lean ====
/-
  The idealized kernel program's run with every buffer named.

  The program is four grid regions among four stretches of host operations. Its generated frame states only that
  the arguments end unchanged; the same launch, with the last thread state read against the final memory, says more:
  every buffer that is not a staging buffer ends at the contents the fold through the program gives it
  (`Gen.W8`: the launch memory pushed through each stretch's operations and each region's write-backs in turn).
  In particular the result array ends at the fold's value there.
-/
import proofs.«149602_j52415780880534_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with every unscoped buffer of every core at the
    fold's contents. -/
theorem run_named : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- The same run read at the result array and at the arguments: the result ends at the fold's value, the arguments as
    launched. -/
theorem run_out : θ_run defs (onTc (τ := τ) (main (F := F))) ⟨m, fun _ => 0, ρ⟩ (fun r => ∀ c : Dev nD,
      r.2.mem ((c.tc : Thread nD τ).loc main_v0) = W8 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨h c _ (mem_uc main_v0 (by decide)),
     (h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c),
     (h c _ (mem_uc main_arg6 (by decide))).trans (W8_main_arg6 m ρ c),
     (h c _ (mem_uc main_arg7 (by decide))).trans (W8_main_arg7 m ρ c),
     (h c _ (mem_uc main_arg8 (by decide))).trans (W8_main_arg8 m ρ c)⟩)
    (run_named m ρ)

end Cert.KernelIdeal.KRun

end
-- ==== Proof.LibPlainProduct.lean ====
/-
  The product of two arrays of extended reals, rows by columns, and the two operations that compute it.

  For an `M × K` array `x` and a `K × N` array `w`, `rowsByCols x w` is the `M × N` array whose entry `(r, c)` is
  the sum over `k` of `x (r, k) · w (k, c)`. On the extended reals addition is commutative and associative, so the
  sum over the finite index set is well defined whatever its order; nothing here needs the entries to be finite.

  * `matmul_zero_plain`: a matrix unit's product into the zero accumulator, with the plain dimension numbers
    (`DotDims.plain`: contract the left operand's columns with the right operand's rows), is `rowsByCols`.
  * `dotGeneral_plain`: the host's general dot product with the same dimension numbers is `rowsByCols` too.
  * `rowsByCols_rows`: the rows of a product depend on the same rows of the left operand only — if `xb` holds rows
    `e r` of `x`, then `rowsByCols xb w` holds rows `e r` of `rowsByCols x w`. This is what lets a product computed
    one block of rows at a time be read as the whole product.
-/
import Idealize.ShloMosaic.Lib.ValueIdx
import Idealize.ShloMosaic.PureOps.Ideal.Laws

noncomputable section

open scoped BigOperators

namespace Idealize.ShloMosaic.PlainProduct

open Idealize.ShloMosaic Idealize.ShloMosaic.ValueIdx

variable {φ₁ φ₂ : FTy} {M K N : Nat}

/-- Rows by columns: entry `(r, c)` is `∑ k, x (r, k) · w (k, c)`. -/
def rowsByCols (x : FVec Ideal ⟨2, ![M, K]⟩ φ₁) (w : FVec Ideal ⟨2, ![K, N]⟩ φ₂) : FVec Ideal ⟨2, ![M, N]⟩ .f32 :=
  fun i => ∑ k : Fin K, x (ix2 (n0 := M) (n1 := K) (i 0) k) * w (ix2 (n0 := K) (n1 := N) k (i 1))

theorem rowsByCols_apply (x : FVec Ideal ⟨2, ![M, K]⟩ φ₁) (w : FVec Ideal ⟨2, ![K, N]⟩ φ₂) (i : (⟨2, ![M, N]⟩ : Shape).Idx) :
    rowsByCols x w i = ∑ k : Fin K, x (ix2 (n0 := M) (n1 := K) (i 0) k) * w (ix2 (n0 := K) (n1 := N) k (i 1)) := rfl

/-- With the plain dimension numbers the left operand is read at (row of the result, contraction position). -/
theorem plain_lhsIdx (j : (⟨2, ![M, N]⟩ : Shape).Idx) (k : Fin K) :
    (DotDims.plain M K N).lhsIdx j ((contrEquiv1 (DotDims.plain M K N) K rfl rfl).symm k) = ix2 (n0 := M) (n1 := K) (j 0) k := by
  funext a; apply Fin.ext
  match a with
  | ⟨0, _⟩ => rfl
  | ⟨1, _⟩ => exact ((DotDims.plain M K N).lhsIdx_val_of_single rfl j _).trans (contrEquiv1_symm_val _ K rfl rfl k)

/-- … and the right operand at (contraction position, column of the result). -/
theorem plain_rhsIdx (j : (⟨2, ![M, N]⟩ : Shape).Idx) (k : Fin K) :
    (DotDims.plain M K N).rhsIdx j ((contrEquiv1 (DotDims.plain M K N) K rfl rfl).symm k) = ix2 (n0 := K) (n1 := N) k (j 1) := by
  funext a; apply Fin.ext
  match a with
  | ⟨0, _⟩ => exact ((DotDims.plain M K N).rhsIdx_val_of_single rfl j _).trans (contrEquiv1_symm_val _ K rfl rfl k)
  | ⟨1, _⟩ => rfl

/-- The sum over the contraction index of the operands' products, read at the operands' indices, is the sum over
    `k` of `x (r, k) · w (k, c)`. -/
theorem sum_plain (x : FVec Ideal ⟨2, ![M, K]⟩ φ₁) (w : FVec Ideal ⟨2, ![K, N]⟩ φ₂) (j : (⟨2, ![M, N]⟩ : Shape).Idx) :
    (∑ q : (DotDims.plain M K N).contr.Idx, x ((DotDims.plain M K N).lhsIdx j q) * w ((DotDims.plain M K N).rhsIdx j q))
      = rowsByCols x w j :=
  (Equiv.sum_comp (contrEquiv1 (DotDims.plain M K N) K rfl rfl).symm
      (fun q => x ((DotDims.plain M K N).lhsIdx j q) * w ((DotDims.plain M K N).rhsIdx j q))).symm.trans
    (Finset.sum_congr rfl fun k _ =>
      congrArg₂ (fun a b => x a * w b) (plain_lhsIdx j k) (plain_rhsIdx j k))

/-- A matrix unit's product into the zero accumulator is the product rows by columns. -/
theorem matmul_zero_plain (prec : Option ContractPrecision) (x : FVec Ideal ⟨2, ![M, K]⟩ φ₁) (w : FVec Ideal ⟨2, ![K, N]⟩ φ₂) :
    FloatOps.matmul (DotDims.plain M K N) prec x w (constant ⟨2, ![M, N]⟩ .f32 0x00000000#32) = rowsByCols x w :=
  funext fun j => (Ideal.matmul_constant_zero_apply (DotDims.plain M K N) prec x w j).trans (sum_plain x w j)

/-- The host's general dot product with the same dimension numbers is the same product, whatever its schedule. -/
theorem dotGeneral_plain (prec : Option ContractPrecision) (sched : HostSchedule) (x : FVec Ideal ⟨2, ![M, K]⟩ φ₁)
    (w : FVec Ideal ⟨2, ![K, N]⟩ φ₂) :
    FloatOps.dotGeneral (DotDims.plain M K N) prec sched x w = rowsByCols x w :=
  funext fun j => (Ideal.dotGeneral_apply (DotDims.plain M K N) prec sched x w j).trans (sum_plain x w j)

/-- Rows `e r` of a product are the product of rows `e r` of the left operand: if `xb (r, k) = x (e r, k)` then
    `(xb · w) (r, c) = (x · w) (e r, c)`. -/
theorem rowsByCols_rows {B : Nat} (x : FVec Ideal ⟨2, ![M, K]⟩ φ₁) (w : FVec Ideal ⟨2, ![K, N]⟩ φ₂)
    (xb : FVec Ideal ⟨2, ![B, K]⟩ φ₁) (e : Fin B → Fin M)
    (hxb : ∀ (r : Fin B) (k : Fin K), xb (ix2 (n0 := B) (n1 := K) r k) = x (ix2 (n0 := M) (n1 := K) (e r) k))
    (j : (⟨2, ![B, N]⟩ : Shape).Idx) :
    rowsByCols xb w j = rowsByCols x w (ix2 (n0 := M) (n1 := N) (e (j 0)) (j 1)) :=
  Finset.sum_congr rfl fun k _ =>
    congrArg (fun a => a * w (ix2 (n0 := K) (n1 := N) k (j 1))) (hxb (j 0) k)

end Idealize.ShloMosaic.PlainProduct

end
-- ==== Proof.LibLayout.lean ====
/-
  Layout operations read at coordinates, for shapes the library's own collection does not cover:
  a vector turned into a column, a column repeated along its unit axis, and the two reshapes between a
  three-axis array and the two-axis array whose rows are the pairs of its first two coordinates.
  Each lemma names the operand's index by coordinates, so that it applies by unification.
-/
import Idealize.ShloMosaic.Lib.Pipeline.Value
import Idealize.ShloMosaic.Lib.ValueIdx

namespace Cert.LibLayout

open Idealize.ShloMosaic Idealize.ShloMosaic.ValueIdx

variable {α : Type}

/-- A vector of length `a` cast to a column `[a, 1]` reads, at `(i, u)`, the vector at `i`: the row-major
    position of `(i, u)` is `i · 1 + u = i`, the unit coordinate being zero. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- An array `[a, b, c]` reshaped to `[n, c]` with `n = a · b` reads, at row `r = p · b + q` and column `z`,
    the array at `(p, q, z)`: both have the row-major position `(p · b + q) · c + z`. -/
theorem shapeCast_abc_nc_apply {a b c n : ℕ} (x : (⟨3, ![a, b, c]⟩ : Shape).Idx → α)
    (h : (⟨3, ![a, b, c]⟩ : Shape).ShapeCasts ⟨2, ![n, c]⟩) (p : Fin a) (q : Fin b) (z : Fin c) (r : Fin n)
    (hr : r.val = p.val * b + q.val) : shapeCast ⟨2, ![n, c]⟩ x h (ix2 r z) = x (ix3 p q z) :=
  shapeCast_apply x h _ _ (by
    rw [Shape.rowMajor_val_three, Shape.rowMajor_val_two]
    show (p.val * b + q.val) * c + z.val = r.val * c + z.val
    rw [hr])

/-- The reshape back: `[n, c]` reshaped to `[a, b, c]` reads, at `(p, q, z)`, row `r = p · b + q` at column `z`. -/
theorem shapeCast_nc_abc_apply {a b c n : ℕ} (x : (⟨2, ![n, c]⟩ : Shape).Idx → α)
    (h : (⟨2, ![n, c]⟩ : Shape).ShapeCasts ⟨3, ![a, b, c]⟩) (p : Fin a) (q : Fin b) (z : Fin c) (r : Fin n)
    (hr : r.val = p.val * b + q.val) : shapeCast ⟨3, ![a, b, c]⟩ x h (ix3 p q z) = x (ix2 r z) :=
  shapeCast_apply x h _ _ (by
    rw [Shape.rowMajor_val_two, Shape.rowMajor_val_three]
    show r.val * c + z.val = (p.val * b + q.val) * c + z.val
    rw [hr])

end Cert.LibLayout
-- ==== Proof.KAct.lean ====
/-
  The three array functions the kernel's regions compute, on whole arrays.

  * `scaledProduct x w d`: the rows of `x · w`, row `n` scaled by `d(n)`.
  * `act a d b`: the activation of a message-passing layer (below).
  * `affine P W b`: `P · W` plus the bias row `b` on every row.

  The activation of a message-passing layer, on an array of rows.

  Row `r` of the aggregated messages `a` is scaled by the row's factor `d(r)`, a bias row `b` is added, and negative
  entries are replaced by zero: `act a d b (r, k) = max (a(r, k) · d(r) + b(k)) 0`. The same formula serves a block of
  rows and the whole array (`R` is the number of rows).
-/
import proofs.«149602_j52415780880534_2_alg».proof.Proof.LibPlainProduct
import Idealize.ShloMosaic.Lib.ValueIdx
import Idealize.ShloMosaic.PureOps.Ideal.Laws

noncomputable section

namespace Cert.KAct

open Idealize.ShloMosaic Idealize.ShloMosaic.ValueIdx Idealize.ShloMosaic.PlainProduct

/-- Entry `(n, q)` is `(∑ₖ x(n, k) · w(k, q)) · d(n)`. -/
def scaledProduct (x : FVec Ideal ⟨2, ![50000, 128]⟩ .f32) (w : FVec Ideal ⟨2, ![128, 128]⟩ .f32)
    (d : FVec Ideal ⟨2, ![50000, 1]⟩ .f32) : FVec Ideal ⟨2, ![50000, 128]⟩ .f32 :=
  fun i => rowsByCols x w i * d (ix2 (n0 := 50000) (n1 := 1) (i 0) (0 : Fin 1))

/-- Entry `(g, o)` is `∑ₖ P(g, k) · W(k, o) + b(o)`. -/
def affine (P : FVec Ideal ⟨2, ![64, 128]⟩ .f32) (W : FVec Ideal ⟨2, ![128, 16]⟩ .f32)
    (b : FVec Ideal ⟨2, ![1, 16]⟩ .f32) : FVec Ideal ⟨2, ![64, 16]⟩ .f32 :=
  fun i => rowsByCols P W i + b (ix2 (n0 := 1) (n1 := 16) (0 : Fin 1) (i 1))

theorem scaledProduct_apply (x : FVec Ideal ⟨2, ![50000, 128]⟩ .f32) (w : FVec Ideal ⟨2, ![128, 128]⟩ .f32)
    (d : FVec Ideal ⟨2, ![50000, 1]⟩ .f32) (n : Fin 50000) (q : Fin 128) :
    scaledProduct x w d (ix2 n q) = rowsByCols x w (ix2 n q) * d (ix2 n (0 : Fin 1)) := rfl

theorem affine_apply (P : FVec Ideal ⟨2, ![64, 128]⟩ .f32) (W : FVec Ideal ⟨2, ![128, 16]⟩ .f32)
    (b : FVec Ideal ⟨2, ![1, 16]⟩ .f32) (g : Fin 64) (o : Fin 16) :
    affine P W b (ix2 g o) = rowsByCols P W (ix2 g o) + b (ix2 (0 : Fin 1) o) := rfl

/-- `max (a(r, k) · d(r) + b(k)) 0`, the zero written as the float pattern it is printed with. -/
def act {R : ℕ} (a : FVec Ideal ⟨2, ![R, 128]⟩ .f32) (d : FVec Ideal ⟨2, ![R, 1]⟩ .f32)
    (b : FVec Ideal ⟨2, ![1, 128]⟩ .f32) : FVec Ideal ⟨2, ![R, 128]⟩ .f32 :=
  fun y => max (a y * d (ix2 (n0 := R) (n1 := 1) (y 0) (0 : Fin 1)) + b (ix2 (n0 := 1) (n1 := 128) (0 : Fin 1) (y 1)))
    (Ideal.ofBits .f32 0x00000000#32)

theorem act_apply {R : ℕ} (a : FVec Ideal ⟨2, ![R, 128]⟩ .f32) (d : FVec Ideal ⟨2, ![R, 1]⟩ .f32)
    (b : FVec Ideal ⟨2, ![1, 128]⟩ .f32) (r : Fin R) (k : Fin 128) :
    act a d b (ix2 r k) = max (a (ix2 r k) * d (ix2 r (0 : Fin 1)) + b (ix2 (0 : Fin 1) k)) (Ideal.ofBits .f32 0x00000000#32) := rfl

/-- The same entry spelt with the float operations themselves (at the exact values: product, sum, maximum). -/
theorem act_apply_ops {R : ℕ} (a : FVec Ideal ⟨2, ![R, 128]⟩ .f32) (d : FVec Ideal ⟨2, ![R, 1]⟩ .f32)
    (b : FVec Ideal ⟨2, ![1, 128]⟩ .f32) (r : Fin R) (k : Fin 128) :
    act a d b (ix2 r k)
      = FloatOps.maximumf (F := Ideal) (φ := .f32)
          (FloatOps.addf (F := Ideal) (φ := .f32) (a (ix2 r k) * d (ix2 r (0 : Fin 1))) (b (ix2 (0 : Fin 1) k)))
          (FloatOps.ofBits (F := Ideal) .f32 0x00000000#32) := rfl

end Cert.KAct

end
-- ==== Proof.KReg0.lean ====
/-
  Region 0 of the idealized kernel: rows of `x · W` scaled row by row.

  The region walks the 50000 rows in 10 blocks of 5000. At a point it holds block `t` of `x`, the whole of `W` and block
  `t` of the per-row scale `d` (a column), and writes back, for row `p` of the block and column `q`,
  `(∑ₖ x(p, k) · W(k, q)) · d(p)` — the matrix unit's product into a zero accumulator, times the column repeated along
  the row. Row `p` of block `t` is row `5000 · t + p` of the array, and a row of the product depends on that row of
  `x` only, so the blocks written back are the blocks of ONE array, `scaledProduct x W d`, and they cover it.
  Stated for any contents `V` of the buffers at the region's entry.
-/
import proofs.«149602_j52415780880534_2_alg».proof.Proof.Gen.KernelIdeal.Frame
import proofs.«149602_j52415780880534_2_alg».proof.Proof.LibPlainProduct
import proofs.«149602_j52415780880534_2_alg».proof.Proof.LibLayout
import proofs.«149602_j52415780880534_2_alg».proof.Proof.KAct
import Idealize.ShloMosaic.Lib.Pipeline.Value
import Idealize.ShloMosaic.Lib.ValueIdx
import Idealize.ShloMosaic.Lib.ValueLayout

set_option maxRecDepth 16384

noncomputable section

namespace Cert.KernelIdeal.KReg0

open Cert.KernelIdeal Cert.KernelIdeal.Gen Idealize.ShloMosaic Idealize.ShloMosaic.TcCoe Idealize.SL.Sem
open Idealize.ShloMosaic.ValueIdx Idealize.ShloMosaic.PlainProduct
open Idealize.ShloMosaic.Pipeline (Dat)
open Cert.KAct

variable (V : (c : Dev nD) → (b : Ref sig .tc) → Buf (Elt Ideal) ((c : Thread nD τ).loc b))

theorem hz : (![0, 0] : Fin 2 → Nat) = fun _ => 0 := funext fun a => by fin_cases a <;> rfl

/-- Equal factors term by term give equal scaled sums of products. -/
theorem sum_mul_congr (f g f' g' : Fin 128 → EReal) (z : EReal) (hf : ∀ k, f k = f' k) (hg : ∀ k, g k = g' k) :
    (∑ k, f k * g k) * z = (∑ k, f' k * g' k) * z := by
  rw [show f = f' from funext hf, show g = g' from funext hg]

/-- The body's stored value at `(p, q)`: the product's entry times the scale of row `p`. -/
theorem pay_apply (v0 : FVec Ideal S5000x128 .f32) (v2 : FVec Ideal S128x128 .f32) (v5 : FVec Ideal S5000x1 .f32)
    (p : Fin 5000) (q : Fin 128) :
    k0_pay1 (F := Ideal) v0 v2 v5 (ix2 p q) = rowsByCols v0 v2 (ix2 p q) * v5 (ix2 p (0 : Fin 1)) := by
  unfold k0_pay1
  show (FloatOps.matmul (F := Ideal) (DotDims.plain 5000 128 128) none v0 v2 (constant ⟨2, ![5000, 128]⟩ .f32 0x00000000#32) (ix2 p q) : EReal)
      * (broadcastTo S5000x128 (shapeCast S5000x1 v5 shapeCasts_S5000x1_S5000x1) broadcasts_S5000x1_S5000x128 (ix2 p q) : EReal) = _
  rw [matmul_zero_plain, shapeCast_self, Cert.LibLayout.broadcastTo_a1_ab_apply]

/-- Where each window's block sits at a point: the row-blocked windows move with the output, the weight is whole. -/
theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = win0_3.index t (0 : Fin 2) ∧ win0_2.index t (1 : Fin 2) = 0
    ∧ win0_3.index t (1 : Fin 2) = 0 ∧ win0_3.index t (0 : Fin 2) ≤ 9 :=
  (by decide +kernel : ∀ t : Fin grid0.N, _)

/-- Every block of rows is some point's. -/
theorem idx_onto : ∀ q0 : Fin 10, ∃ t : Fin cfg0.N, win0_3.index t = ![q0.val, 0] :=
  (by decide +kernel : ∀ q0 : Fin 10, ∃ t : Fin grid0.N, win0_3.index t = ![q0.val, 0])

/-- Row `p` of the block of point `t` is this row of the array. -/
def rowAt (t : Fin cfg0.N) (p : Fin 5000) : Fin 50000 :=
  ⟨win0_3.index t (0 : Fin 2) * 5000 + p.val, by have := (idx_facts t).2.2.2.2.2.2.2; have := p.isLt; omega⟩

theorem blk_x (c : Dev nD) (t : Fin cfg0.N) (p : Fin 5000) (k : Fin 128) :
    iblk0 V c 0 t (ix2 p k) = V c main_arg0 (ix2 (rowAt t p) k) := by
  obtain ⟨e0, e1, e2, e3, e4, e5, e6, e7⟩ := idx_facts t
  show V c main_arg0 (((cfg0.win 0).blk t).view.emb (ix2 p k)) = V c main_arg0 (ix2 (rowAt t p) k)
  refine congrArg _ (funext fun a => Fin.ext ?_)
  match a with
  | ⟨0, _⟩ => show win0_0.index t (0 : Fin 2) * 5000 + 1 * p.val = win0_3.index t (0 : Fin 2) * 5000 + p.val; omega
  | ⟨1, _⟩ => show win0_0.index t (1 : Fin 2) * 128 + 1 * k.val = k.val; omega

theorem blk_w (c : Dev nD) (t : Fin cfg0.N) (k : Fin 128) (q : Fin 128) :
    iblk0 V c 1 t (ix2 k q) = V c main_arg3 (ix2 k q) := by
  obtain ⟨e0, e1, e2, e3, e4, e5, e6, e7⟩ := idx_facts t
  show V c main_arg3 (((cfg0.win 1).blk t).view.emb (ix2 k q)) = V c main_arg3 (ix2 k q)
  refine congrArg _ (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

theorem blk_d (c : Dev nD) (t : Fin cfg0.N) (p : Fin 5000) :
    iblk0 V c 2 t (ix2 p (0 : Fin 1)) = V c main_call0_v15 (ix2 (rowAt t p) (0 : Fin 1)) := by
  obtain ⟨e0, e1, e2, e3, e4, e5, e6, e7⟩ := idx_facts t
  show V c main_call0_v15 (((cfg0.win 2).blk t).view.emb (ix2 p (0 : Fin 1))) = V c main_call0_v15 (ix2 (rowAt t p) (0 : Fin 1))
  refine congrArg _ (funext fun a => Fin.ext ?_)
  match a with
  | ⟨0, _⟩ => show win0_2.index t (0 : Fin 2) * 5000 + 1 * p.val = win0_3.index t (0 : Fin 2) * 5000 + p.val; omega
  | ⟨1, _⟩ => show win0_2.index t (1 : Fin 2) * 1 + 1 * 0 = 0; omega

theorem blk_out (t : Fin cfg0.N) (p : Fin 5000) (q : Fin 128) :
    ((cfg0.win 3).blk t).view.emb (ix2 p q) = ix2 (rowAt t p) q := by
  obtain ⟨e0, e1, e2, e3, e4, e5, e6, e7⟩ := idx_facts t
  refine funext fun a => Fin.ext ?_
  match a with
  | ⟨0, _⟩ => show win0_3.index t (0 : Fin 2) * 5000 + 1 * p.val = win0_3.index t (0 : Fin 2) * 5000 + p.val; omega
  | ⟨1, _⟩ => show win0_3.index t (1 : Fin 2) * 128 + 1 * q.val = q.val; omega

/-- What point `t` writes back is block `t` of `scaledProduct` of the arrays as the region finds them. -/
theorem flushed_eq (c : Dev nD) (t : Fin cfg0.N) :
    (dat0 V c).flushed 3 t = ((cfg0.win 3).blk t).view.read (Elt Ideal)
      (scaledProduct (V c main_arg0) (V c main_arg3) (V c main_call0_v15)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S5000x1) hz]
  funext j
  obtain ⟨p, q, rfl⟩ : ∃ (p : Fin 5000) (q : Fin 128), j = ix2 p q := ⟨j 0, j 1, eq_ix2 j⟩
  show k0_pay1 (F := Ideal) (iblk0 V c 0 t) (iblk0 V c 1 t) (iblk0 V c 2 t) (ix2 p q)
    = scaledProduct (V c main_arg0) (V c main_arg3) (V c main_call0_v15) (((cfg0.win 3).blk t).view.emb (ix2 p q))
  refine (pay_apply (iblk0 V c 0 t) (iblk0 V c 1 t) (iblk0 V c 2 t) p q).trans ?_
  rw [blk_out t p q, blk_d V c t p]
  exact sum_mul_congr (fun k => iblk0 V c 0 t (ix2 p k)) (fun k => iblk0 V c 1 t (ix2 k q))
    (fun k => V c main_arg0 (ix2 (rowAt t p) k)) (fun k => V c main_arg3 (ix2 k q))
    (V c main_call0_v15 (ix2 (rowAt t p) (0 : Fin 1))) (fun k => blk_x V c t p k) (fun k => blk_w V c t k q)

theorem mem_blk (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_call0_v16).slice (win0_3.rect t)).set ↔ _
  rw [View.set_slice_whole, Rect.mem_set_unit]
  exact Iff.rfl

/-- Every entry of the array is in some point's block. -/
theorem cover (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ := idx_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 128 ≤ (i 1).val ∧ (i 1).val < win0_3.index t (1 : Fin 2) * 128 + 128
    omega

/-- The output array after the region: `scaledProduct` of the input arrays as the region finds them. -/
theorem final (c : Dev nD) :
    (dat0 V c).arrAt 3 cfg0.N = scaledProduct (V c main_arg0) (V c main_arg3) (V c main_call0_v15) :=
  (dat0 V c).arrAt_eq_of_cover 3 _ (fun t _ => flushed_eq V c t) cover

end Cert.KernelIdeal.KReg0

end
-- ==== Proof.KReg1.lean ====
/-
  Region 1 of the idealized kernel: the first layer's activation, the second layer's product, and its scale.

  The region walks the 50000 rows in 10 blocks of 5000. At a point it holds block `t` of the aggregated messages `a`
  and of the per-row scale `d`, the bias row `b` and the whole weight `W`. It forms `h = max (a · d + b) 0` on the
  block (`Cert.KAct.act`), multiplies `h · W` on the matrix unit into a zero accumulator and scales row `p` by `d(p)`
  again. A row of the result depends on that row of `a` and `d` only, so the blocks written back are the blocks of
  ONE array: `scaledProduct (act a d b) W d`, and they cover it. Stated for any contents `V` at the region's entry.
-/
import proofs.«149602_j52415780880534_2_alg».proof.Proof.KReg0
import proofs.«149602_j52415780880534_2_alg».proof.Proof.KAct

set_option maxRecDepth 16384

noncomputable section

namespace Cert.KernelIdeal.KReg1

open Cert.KernelIdeal Cert.KernelIdeal.Gen Idealize.ShloMosaic Idealize.ShloMosaic.TcCoe Idealize.SL.Sem
open Idealize.ShloMosaic.ValueIdx Idealize.ShloMosaic.PlainProduct
open Idealize.ShloMosaic.Pipeline (Dat)
open Cert.KAct
open Cert.KernelIdeal.KReg0 (sum_mul_congr hz)

variable (V : (c : Dev nD) → (b : Ref sig .tc) → Buf (Elt Ideal) ((c : Thread nD τ).loc b))

/-- The block's activation as the body spells it (identity casts, the column repeated along the rows, the bias row
    repeated down the rows, the maximum with a splat zero) is `act` of the three loaded blocks. -/
theorem actBlk_eq (v0 : FVec Ideal S5000x128 .f32) (v2 : FVec Ideal S5000x1 .f32) (v6 : FVec Ideal S1x128 .f32) :
    maximumf (addf (mulf (shapeCast S5000x128 v0 shapeCasts_S5000x128_S5000x128)
        (broadcastTo S5000x128 (shapeCast S5000x1 v2 shapeCasts_S5000x1_S5000x1) broadcasts_S5000x1_S5000x128))
        (broadcastTo S5000x128 (shapeCast S1x128 v6 shapeCasts_S1x128_S1x128) broadcasts_S1x128_S5000x128))
      (broadcast S5000x128 (Scalar.ofBits (F := Ideal) .f32 0x00000000#32))
    = act (R := 5000) v0 v2 v6 := by
  funext y
  obtain ⟨p, k, rfl⟩ : ∃ (p : Fin 5000) (k : Fin 128), y = ix2 p k := ⟨y 0, y 1, eq_ix2 y⟩
  rw [act_apply]
  simp only [maximumf, addf, mulf, broadcast, shapeCast_self, Cert.LibLayout.broadcastTo_a1_ab_apply,
    broadcastTo_1b_ab_apply]
  rfl

/-- The body's stored value at `(p, q)`. -/
theorem pay_apply (v0 : FVec Ideal S5000x128 .f32) (v2 : FVec Ideal S5000x1 .f32) (v6 : FVec Ideal S1x128 .f32)
    (v13 : FVec Ideal S128x128 .f32) (v16 : FVec Ideal S5000x1 .f32) (p : Fin 5000) (q : Fin 128) :
    k1_pay1 (F := Ideal) v0 v2 v6 v13 v16 (ix2 p q)
      = rowsByCols (act (R := 5000) v0 v2 v6) v13 (ix2 p q) * v16 (ix2 p (0 : Fin 1)) := by
  unfold k1_pay1
  show (FloatOps.matmul (F := Ideal) (DotDims.plain 5000 128 128) none
        (maximumf (addf (mulf (shapeCast S5000x128 v0 shapeCasts_S5000x128_S5000x128)
            (broadcastTo S5000x128 (shapeCast S5000x1 v2 shapeCasts_S5000x1_S5000x1) broadcasts_S5000x1_S5000x128))
            (broadcastTo S5000x128 (shapeCast S1x128 v6 shapeCasts_S1x128_S1x128) broadcasts_S1x128_S5000x128))
          (broadcast S5000x128 (Scalar.ofBits (F := Ideal) .f32 0x00000000#32)))
        v13 (constant ⟨2, ![5000, 128]⟩ .f32 0x00000000#32) (ix2 p q) : EReal)
      * (broadcastTo S5000x128 (shapeCast S5000x1 v16 shapeCasts_S5000x1_S5000x1) broadcasts_S5000x1_S5000x128 (ix2 p q) : EReal) = _
  rw [actBlk_eq, matmul_zero_plain, shapeCast_self, Cert.LibLayout.broadcastTo_a1_ab_apply]

/-- Where each window's block sits at a point. -/
theorem idx_facts : ∀ t : Fin cfg1.N,
    win1_0.index t (0 : Fin 2) = win1_4.index t (0 : Fin 2) ∧ win1_0.index t (1 : Fin 2) = 0
    ∧ win1_1.index t (0 : Fin 2) = win1_4.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (1 : Fin 2) = 0 ∧ win1_4.index t (0 : Fin 2) ≤ 9 :=
  (by decide +kernel : ∀ t : Fin grid1.N, _)

theorem idx_onto : ∀ q0 : Fin 10, ∃ t : Fin cfg1.N, win1_4.index t = ![q0.val, 0] :=
  (by decide +kernel : ∀ q0 : Fin 10, ∃ t : Fin grid1.N, win1_4.index t = ![q0.val, 0])

/-- Row `p` of the block of point `t` is this row of the array. -/
def rowAt (t : Fin cfg1.N) (p : Fin 5000) : Fin 50000 :=
  ⟨win1_4.index t (0 : Fin 2) * 5000 + p.val, by have := (idx_facts t).2.2.2.2.2.2.2.2.2; have := p.isLt; omega⟩

theorem blk_a (c : Dev nD) (t : Fin cfg1.N) (p : Fin 5000) (k : Fin 128) :
    iblk1 V c 0 t (ix2 p k) = V c main_call0_v26 (ix2 (rowAt t p) k) := by
  obtain ⟨e0, e1, e2, e3, e4, e5, e6, e7, e8, e9⟩ := idx_facts t
  show V c main_call0_v26 (((cfg1.win 0).blk t).view.emb (ix2 p k)) = V c main_call0_v26 (ix2 (rowAt t p) k)
  refine congrArg _ (funext fun a => Fin.ext ?_)
  match a with
  | ⟨0, _⟩ => show win1_0.index t (0 : Fin 2) * 5000 + 1 * p.val = win1_4.index t (0 : Fin 2) * 5000 + p.val; omega
  | ⟨1, _⟩ => show win1_0.index t (1 : Fin 2) * 128 + 1 * k.val = k.val; omega

theorem blk_d (c : Dev nD) (t : Fin cfg1.N) (p : Fin 5000) :
    iblk1 V c 1 t (ix2 p (0 : Fin 1)) = V c main_call0_v15 (ix2 (rowAt t p) (0 : Fin 1)) := by
  obtain ⟨e0, e1, e2, e3, e4, e5, e6, e7, e8, e9⟩ := idx_facts t
  show V c main_call0_v15 (((cfg1.win 1).blk t).view.emb (ix2 p (0 : Fin 1))) = V c main_call0_v15 (ix2 (rowAt t p) (0 : Fin 1))
  refine congrArg _ (funext fun a => Fin.ext ?_)
  match a with
  | ⟨0, _⟩ => show win1_1.index t (0 : Fin 2) * 5000 + 1 * p.val = win1_4.index t (0 : Fin 2) * 5000 + p.val; omega
  | ⟨1, _⟩ => show win1_1.index t (1 : Fin 2) * 1 + 1 * 0 = 0; omega

theorem blk_b (c : Dev nD) (t : Fin cfg1.N) (k : Fin 128) :
    iblk1 V c 2 t (ix2 (0 : Fin 1) k) = V c main_call0_v27 (ix2 (0 : Fin 1) k) := by
  obtain ⟨e0, e1, e2, e3, e4, e5, e6, e7, e8, e9⟩ := idx_facts t
  show V c main_call0_v27 (((cfg1.win 2).blk t).view.emb (ix2 (0 : Fin 1) k)) = V c main_call0_v27 (ix2 (0 : Fin 1) k)
  refine congrArg _ (funext fun a => Fin.ext ?_)
  match a with
  | ⟨0, _⟩ => show win1_2.index t (0 : Fin 2) * 1 + 1 * 0 = 0; omega
  | ⟨1, _⟩ => show win1_2.index t (1 : Fin 2) * 128 + 1 * k.val = k.val; omega

theorem blk_w (c : Dev nD) (t : Fin cfg1.N) (k : Fin 128) (q : Fin 128) :
    iblk1 V c 3 t (ix2 k q) = V c main_arg5 (ix2 k q) := by
  obtain ⟨e0, e1, e2, e3, e4, e5, e6, e7, e8, e9⟩ := idx_facts t
  show V c main_arg5 (((cfg1.win 3).blk t).view.emb (ix2 k q)) = V c main_arg5 (ix2 k q)
  refine congrArg _ (funext fun a => Fin.ext ?_)
  match a with
  | ⟨0, _⟩ => show win1_3.index t (0 : Fin 2) * 128 + 1 * k.val = k.val; omega
  | ⟨1, _⟩ => show win1_3.index t (1 : Fin 2) * 128 + 1 * q.val = q.val; omega

theorem blk_out (t : Fin cfg1.N) (p : Fin 5000) (q : Fin 128) :
    ((cfg1.win 4).blk t).view.emb (ix2 p q) = ix2 (rowAt t p) q := by
  obtain ⟨e0, e1, e2, e3, e4, e5, e6, e7, e8, e9⟩ := idx_facts t
  refine funext fun a => Fin.ext ?_
  match a with
  | ⟨0, _⟩ => show win1_4.index t (0 : Fin 2) * 5000 + 1 * p.val = win1_4.index t (0 : Fin 2) * 5000 + p.val; omega
  | ⟨1, _⟩ => show win1_4.index t (1 : Fin 2) * 128 + 1 * q.val = q.val; omega

/-- The activation of the block's rows is the activation of those rows of the arrays. -/
theorem blk_act (c : Dev nD) (t : Fin cfg1.N) (p : Fin 5000) (k : Fin 128) :
    act (R := 5000) (iblk1 V c 0 t) (iblk1 V c 1 t) (iblk1 V c 2 t) (ix2 p k)
      = act (R := 50000) (V c main_call0_v26) (V c main_call0_v15) (V c main_call0_v27) (ix2 (rowAt t p) k) := by
  rw [act_apply, act_apply, blk_a V c t p k, blk_d V c t p, blk_b V c t k]

/-- What point `t` writes back is block `t` of the layer's array. -/
theorem flushed_eq (c : Dev nD) (t : Fin cfg1.N) :
    (dat1 V c).flushed 4 t = ((cfg1.win 4).blk t).view.read (Elt Ideal)
      (scaledProduct (act (R := 50000) (V c main_call0_v26) (V c main_call0_v15) (V c main_call0_v27)) (V c main_arg5)
        (V c main_call0_v15)) := by
  show (cfg1.win 4).cut (grid1.coords t) ((dat1 V c).after 4 t) = _
  rw [after1_4]
  unfold out1_4
  rw [View.canon_unit_zero hz]
  simp only [View.ld_unit_zero (S := S5000x128) hz, View.ld_unit_zero (S := S5000x1) hz,
    View.ld_unit_zero (S := S1x128) hz, View.ld_unit_zero (S := S128x128) hz]
  funext j
  obtain ⟨p, q, rfl⟩ : ∃ (p : Fin 5000) (q : Fin 128), j = ix2 p q := ⟨j 0, j 1, eq_ix2 j⟩
  show k1_pay1 (F := Ideal) (iblk1 V c 0 t) (iblk1 V c 1 t) (iblk1 V c 2 t) (iblk1 V c 3 t) (iblk1 V c 1 t) (ix2 p q)
    = scaledProduct (act (R := 50000) (V c main_call0_v26) (V c main_call0_v15) (V c main_call0_v27)) (V c main_arg5)
        (V c main_call0_v15) (((cfg1.win 4).blk t).view.emb (ix2 p q))
  refine (pay_apply (iblk1 V c 0 t) (iblk1 V c 1 t) (iblk1 V c 2 t) (iblk1 V c 3 t) (iblk1 V c 1 t) p q).trans ?_
  rw [blk_out t p q, blk_d V c t p]
  exact sum_mul_congr (fun k => act (R := 5000) (iblk1 V c 0 t) (iblk1 V c 1 t) (iblk1 V c 2 t) (ix2 p k))
    (fun k => iblk1 V c 3 t (ix2 k q))
    (fun k => act (R := 50000) (V c main_call0_v26) (V c main_call0_v15) (V c main_call0_v27) (ix2 (rowAt t p) k))
    (fun k => V c main_arg5 (ix2 k q))
    (V c main_call0_v15 (ix2 (rowAt t p) (0 : Fin 1))) (fun k => blk_act V c t p k) (fun k => blk_w V c t k q)

theorem mem_blk (t : Fin cfg1.N) (i : S50000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_call0_v28).slice (win1_4.rect t)).set ↔ _
  rw [View.set_slice_whole, Rect.mem_set_unit]
  exact Iff.rfl

theorem cover (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  obtain ⟨t, ht⟩ := idx_onto ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_blk]
  intro a
  match a with
  | ⟨0, _⟩ =>
    show win1_4.index t (0 : Fin 2) * 5000 ≤ (i 0).val ∧ (i 0).val < win1_4.index t (0 : Fin 2) * 5000 + 5000
    omega
  | ⟨1, _⟩ =>
    show win1_4.index t (1 : Fin 2) * 128 ≤ (i 1).val ∧ (i 1).val < win1_4.index t (1 : Fin 2) * 128 + 128
    omega

/-- The output array after the region. -/
theorem final (c : Dev nD) :
    (dat1 V c).arrAt 4 cfg1.N
      = scaledProduct (act (R := 50000) (V c main_call0_v26) (V c main_call0_v15) (V c main_call0_v27)) (V c main_arg5)
          (V c main_call0_v15) :=
  (dat1 V c).arrAt_eq_of_cover 4 _ (fun t _ => flushed_eq V c t) cover

end Cert.KernelIdeal.KReg1

end
-- ==== Proof.KReg2.lean ====
/-
  Region 2 of the idealized kernel: the second layer's activation.

  The region walks the 50000 rows in 10 blocks of 5000; at a point it holds block `t` of the aggregated messages `a`
  and of the per-row scale `d`, and the bias row `b`, and writes back `max (a · d + b) 0` on the block. The blocks
  written back are the blocks of `act a d b` on the whole arrays, and they cover it. Stated for any contents `V` at the
  region's entry.
-/
import proofs.«149602_j52415780880534_2_alg».proof.Proof.KReg1

set_option maxRecDepth 16384

noncomputable section

namespace Cert.KernelIdeal.KReg2

open Cert.KernelIdeal Cert.KernelIdeal.Gen Idealize.ShloMosaic Idealize.ShloMosaic.TcCoe Idealize.SL.Sem
open Idealize.ShloMosaic.ValueIdx
open Idealize.ShloMosaic.Pipeline (Dat)
open Cert.KAct
open Cert.KernelIdeal.KReg0 (hz)

variable (V : (c : Dev nD) → (b : Ref sig .tc) → Buf (Elt Ideal) ((c : Thread nD τ).loc b))

/-- The body's stored block is `act` of the three loaded blocks. -/
theorem pay_eq (v0 : FVec Ideal S5000x128 .f32) (v2 : FVec Ideal S5000x1 .f32) (v6 : FVec Ideal S1x128 .f32) :
    k2_pay1 (F := Ideal) v0 v2 v6 = act (R := 5000) v0 v2 v6 := by
  unfold k2_pay1
  exact Cert.KernelIdeal.KReg1.actBlk_eq v0 v2 v6

theorem idx_facts : ∀ t : Fin cfg2.N,
    win2_0.index t (0 : Fin 2) = win2_3.index t (0 : Fin 2) ∧ win2_0.index t (1 : Fin 2) = 0
    ∧ win2_1.index t (0 : Fin 2) = win2_3.index t (0 : Fin 2) ∧ win2_1.index t (1 : Fin 2) = 0
    ∧ win2_2.index t (0 : Fin 2) = 0 ∧ win2_2.index t (1 : Fin 2) = 0
    ∧ win2_3.index t (1 : Fin 2) = 0 ∧ win2_3.index t (0 : Fin 2) ≤ 9 :=
  (by decide +kernel : ∀ t : Fin grid2.N, _)

theorem idx_onto : ∀ q0 : Fin 10, ∃ t : Fin cfg2.N, win2_3.index t = ![q0.val, 0] :=
  (by decide +kernel : ∀ q0 : Fin 10, ∃ t : Fin grid2.N, win2_3.index t = ![q0.val, 0])

/-- Row `p` of the block of point `t` is this row of the array. -/
def rowAt (t : Fin cfg2.N) (p : Fin 5000) : Fin 50000 :=
  ⟨win2_3.index t (0 : Fin 2) * 5000 + p.val, by have := (idx_facts t).2.2.2.2.2.2.2; have := p.isLt; omega⟩

theorem blk_a (c : Dev nD) (t : Fin cfg2.N) (p : Fin 5000) (k : Fin 128) :
    iblk2 V c 0 t (ix2 p k) = V c main_call0_v38 (ix2 (rowAt t p) k) := by
  obtain ⟨e0, e1, e2, e3, e4, e5, e6, e7⟩ := idx_facts t
  show V c main_call0_v38 (((cfg2.win 0).blk t).view.emb (ix2 p k)) = V c main_call0_v38 (ix2 (rowAt t p) k)
  refine congrArg _ (funext fun a => Fin.ext ?_)
  match a with
  | ⟨0, _⟩ => show win2_0.index t (0 : Fin 2) * 5000 + 1 * p.val = win2_3.index t (0 : Fin 2) * 5000 + p.val; omega
  | ⟨1, _⟩ => show win2_0.index t (1 : Fin 2) * 128 + 1 * k.val = k.val; omega

theorem blk_d (c : Dev nD) (t : Fin cfg2.N) (p : Fin 5000) :
    iblk2 V c 1 t (ix2 p (0 : Fin 1)) = V c main_call0_v15 (ix2 (rowAt t p) (0 : Fin 1)) := by
  obtain ⟨e0, e1, e2, e3, e4, e5, e6, e7⟩ := idx_facts t
  show V c main_call0_v15 (((cfg2.win 1).blk t).view.emb (ix2 p (0 : Fin 1))) = V c main_call0_v15 (ix2 (rowAt t p) (0 : Fin 1))
  refine congrArg _ (funext fun a => Fin.ext ?_)
  match a with
  | ⟨0, _⟩ => show win2_1.index t (0 : Fin 2) * 5000 + 1 * p.val = win2_3.index t (0 : Fin 2) * 5000 + p.val; omega
  | ⟨1, _⟩ => show win2_1.index t (1 : Fin 2) * 1 + 1 * 0 = 0; omega

theorem blk_b (c : Dev nD) (t : Fin cfg2.N) (k : Fin 128) :
    iblk2 V c 2 t (ix2 (0 : Fin 1) k) = V c main_call0_v39 (ix2 (0 : Fin 1) k) := by
  obtain ⟨e0, e1, e2, e3, e4, e5, e6, e7⟩ := idx_facts t
  show V c main_call0_v39 (((cfg2.win 2).blk t).view.emb (ix2 (0 : Fin 1) k)) = V c main_call0_v39 (ix2 (0 : Fin 1) k)
  refine congrArg _ (funext fun a => Fin.ext ?_)
  match a with
  | ⟨0, _⟩ => show win2_2.index t (0 : Fin 2) * 1 + 1 * 0 = 0; omega
  | ⟨1, _⟩ => show win2_2.index t (1 : Fin 2) * 128 + 1 * k.val = k.val; omega

theorem blk_out (t : Fin cfg2.N) (p : Fin 5000) (q : Fin 128) :
    ((cfg2.win 3).blk t).view.emb (ix2 p q) = ix2 (rowAt t p) q := by
  obtain ⟨e0, e1, e2, e3, e4, e5, e6, e7⟩ := idx_facts t
  refine funext fun a => Fin.ext ?_
  match a with
  | ⟨0, _⟩ => show win2_3.index t (0 : Fin 2) * 5000 + 1 * p.val = win2_3.index t (0 : Fin 2) * 5000 + p.val; omega
  | ⟨1, _⟩ => show win2_3.index t (1 : Fin 2) * 128 + 1 * q.val = q.val; omega

theorem blk_act (c : Dev nD) (t : Fin cfg2.N) (p : Fin 5000) (k : Fin 128) :
    act (R := 5000) (iblk2 V c 0 t) (iblk2 V c 1 t) (iblk2 V c 2 t) (ix2 p k)
      = act (R := 50000) (V c main_call0_v38) (V c main_call0_v15) (V c main_call0_v39) (ix2 (rowAt t p) k) := by
  rw [act_apply, act_apply, blk_a V c t p k, blk_d V c t p, blk_b V c t k]

/-- What point `t` writes back is block `t` of the activation of the whole arrays. -/
theorem flushed_eq (c : Dev nD) (t : Fin cfg2.N) :
    (dat2 V c).flushed 3 t = ((cfg2.win 3).blk t).view.read (Elt Ideal)
      (act (R := 50000) (V c main_call0_v38) (V c main_call0_v15) (V c main_call0_v39)) := by
  show (cfg2.win 3).cut (grid2.coords t) ((dat2 V c).after 3 t) = _
  rw [after2_3]
  unfold out2_3
  rw [View.canon_unit_zero hz]
  simp only [View.ld_unit_zero (S := S5000x128) hz, View.ld_unit_zero (S := S5000x1) hz,
    View.ld_unit_zero (S := S1x128) hz]
  funext j
  obtain ⟨p, q, rfl⟩ : ∃ (p : Fin 5000) (q : Fin 128), j = ix2 p q := ⟨j 0, j 1, eq_ix2 j⟩
  show k2_pay1 (F := Ideal) (iblk2 V c 0 t) (iblk2 V c 1 t) (iblk2 V c 2 t) (ix2 p q)
    = act (R := 50000) (V c main_call0_v38) (V c main_call0_v15) (V c main_call0_v39) (((cfg2.win 3).blk t).view.emb (ix2 p q))
  refine (congrFun (pay_eq (iblk2 V c 0 t) (iblk2 V c 1 t) (iblk2 V c 2 t)) (ix2 p q)).trans ?_
  rw [blk_out t p q]
  exact blk_act V c t p q

theorem mem_blk (t : Fin cfg2.N) (i : S50000x128.Idx) :
    i ∈ ((cfg2.win 3).blk t).view.set ↔ ∀ a : Fin 2, win2_3.index t a * S5000x128.size a ≤ (i a).val
      ∧ (i a).val < win2_3.index t a * S5000x128.size a + S5000x128.size a := by
  show i ∈ ((View.whole main_call0_v40).slice (win2_3.rect t)).set ↔ _
  rw [View.set_slice_whole, Rect.mem_set_unit]
  exact Iff.rfl

theorem cover (i : S50000x128.Idx) :
    ∃ t : Fin cfg2.N, (cfg2.win 3).flush t = true ∧ i ∈ ((cfg2.win 3).blk t).view.set := by
  have hi0 : (i 0).val < 50000 := (i 0).isLt
  have hi1 : (i 1).val < 128 := (i 1).isLt
  obtain ⟨t, ht⟩ := idx_onto ⟨(i 0).val / 5000, by omega⟩
  have q0 : win2_3.index t (0 : Fin 2) = (i 0).val / 5000 := congrFun ht 0
  have q1 : win2_3.index t (1 : Fin 2) = 0 := congrFun ht 1
  refine ⟨t, flush2_3 t, ?_⟩
  rw [mem_blk]
  intro a
  match a with
  | ⟨0, _⟩ =>
    show win2_3.index t (0 : Fin 2) * 5000 ≤ (i 0).val ∧ (i 0).val < win2_3.index t (0 : Fin 2) * 5000 + 5000
    omega
  | ⟨1, _⟩ =>
    show win2_3.index t (1 : Fin 2) * 128 ≤ (i 1).val ∧ (i 1).val < win2_3.index t (1 : Fin 2) * 128 + 128
    omega

/-- The output array after the region: the activation of the whole arrays. -/
theorem final (c : Dev nD) :
    (dat2 V c).arrAt 3 cfg2.N = act (R := 50000) (V c main_call0_v38) (V c main_call0_v15) (V c main_call0_v39) :=
  (dat2 V c).arrAt_eq_of_cover 3 _ (fun t _ => flushed_eq V c t) cover

end Cert.KernelIdeal.KReg2

end
-- ==== Proof.KReg3.lean ====
/-
  Region 3 of the idealized kernel: the final linear map.

  One grid point holds the whole pooled array `P` (64 graphs by 128), the whole weight `W` (128 by 16) and the bias row
  `b`, and writes back `P · W + b`: the matrix unit's product into a zero accumulator plus the bias row repeated down
  the rows. The one block is the whole result array. Stated for any contents `V` at the region's entry.
-/
import proofs.«149602_j52415780880534_2_alg».proof.Proof.Gen.KernelIdeal.Frame
import proofs.«149602_j52415780880534_2_alg».proof.Proof.LibPlainProduct
import proofs.«149602_j52415780880534_2_alg».proof.Proof.KAct
import Idealize.ShloMosaic.Lib.Pipeline.Value
import Idealize.ShloMosaic.Lib.ValueIdx
import Idealize.ShloMosaic.Lib.ValueLayout

set_option maxRecDepth 16384

noncomputable section

namespace Cert.KernelIdeal.KReg3

open Cert.KernelIdeal Cert.KernelIdeal.Gen Idealize.ShloMosaic Idealize.ShloMosaic.TcCoe Idealize.SL.Sem
open Idealize.ShloMosaic.ValueIdx Idealize.ShloMosaic.PlainProduct
open Idealize.ShloMosaic.Pipeline (Dat)
open Cert.KAct

variable (V : (c : Dev nD) → (b : Ref sig .tc) → Buf (Elt Ideal) ((c : Thread nD τ).loc b))

theorem hz : (![0, 0] : Fin 2 → Nat) = fun _ => 0 := funext fun a => by fin_cases a <;> rfl

/-- Equal factors term by term give equal sums of products. -/
theorem sum_add_congr (f g f' g' : Fin 128 → EReal) (z : EReal) (hf : ∀ k, f k = f' k) (hg : ∀ k, g k = g' k) :
    (∑ k, f k * g k) + z = (∑ k, f' k * g' k) + z := by
  rw [show f = f' from funext hf, show g = g' from funext hg]

/-- The body's stored value at `(g, o)`. -/
theorem pay_apply (v0 : FVec Ideal S64x128 .f32) (v3 : FVec Ideal S128x16 .f32) (v6 : FVec Ideal S1x16 .f32)
    (g : Fin 64) (o : Fin 16) :
    k3_pay1 (F := Ideal) v0 v3 v6 (ix2 g o) = rowsByCols v0 v3 (ix2 g o) + v6 (ix2 (0 : Fin 1) o) := by
  unfold k3_pay1
  show (FloatOps.matmul (F := Ideal) (DotDims.plain 64 128 16) none (shapeCast S64x128 v0 shapeCasts_S64x128_S64x128) v3
        (constant ⟨2, ![64, 16]⟩ .f32 0x00000000#32) (ix2 g o) : EReal)
      + (broadcastTo S64x16 (shapeCast S1x16 v6 shapeCasts_S1x16_S1x16) broadcasts_S1x16_S64x16 (ix2 g o) : EReal) = _
  simp only [shapeCast_self]
  rw [matmul_zero_plain, broadcastTo_1b_ab_apply]

/-- Every window's one block is its whole array. -/
theorem idx_facts : ∀ t : Fin cfg3.N,
    win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0 :=
  (by decide +kernel : ∀ t : Fin grid3.N, _)

theorem blk_p (c : Dev nD) (t : Fin cfg3.N) (g : Fin 64) (k : Fin 128) :
    iblk3 V c 0 t (ix2 g k) = V c main_call0_v52 (ix2 g k) := by
  obtain ⟨e0, e1, e2, e3, e4, e5, e6, e7⟩ := idx_facts t
  show V c main_call0_v52 (((cfg3.win 0).blk t).view.emb (ix2 g k)) = V c main_call0_v52 (ix2 g k)
  refine congrArg _ (funext fun a => Fin.ext ?_)
  match a with
  | ⟨0, _⟩ => show win3_0.index t (0 : Fin 2) * 64 + 1 * g.val = g.val; omega
  | ⟨1, _⟩ => show win3_0.index t (1 : Fin 2) * 128 + 1 * k.val = k.val; omega

theorem blk_w (c : Dev nD) (t : Fin cfg3.N) (k : Fin 128) (o : Fin 16) :
    iblk3 V c 1 t (ix2 k o) = V c main_arg7 (ix2 k o) := by
  obtain ⟨e0, e1, e2, e3, e4, e5, e6, e7⟩ := idx_facts t
  show V c main_arg7 (((cfg3.win 1).blk t).view.emb (ix2 k o)) = V c main_arg7 (ix2 k o)
  refine congrArg _ (funext fun a => Fin.ext ?_)
  match a with
  | ⟨0, _⟩ => show win3_1.index t (0 : Fin 2) * 128 + 1 * k.val = k.val; omega
  | ⟨1, _⟩ => show win3_1.index t (1 : Fin 2) * 16 + 1 * o.val = o.val; omega

theorem blk_b (c : Dev nD) (t : Fin cfg3.N) (o : Fin 16) :
    iblk3 V c 2 t (ix2 (0 : Fin 1) o) = V c main_call0_v53 (ix2 (0 : Fin 1) o) := by
  obtain ⟨e0, e1, e2, e3, e4, e5, e6, e7⟩ := idx_facts t
  show V c main_call0_v53 (((cfg3.win 2).blk t).view.emb (ix2 (0 : Fin 1) o)) = V c main_call0_v53 (ix2 (0 : Fin 1) o)
  refine congrArg _ (funext fun a => Fin.ext ?_)
  match a with
  | ⟨0, _⟩ => show win3_2.index t (0 : Fin 2) * 1 + 1 * 0 = 0; omega
  | ⟨1, _⟩ => show win3_2.index t (1 : Fin 2) * 16 + 1 * o.val = o.val; omega

theorem blk_out (t : Fin cfg3.N) (g : Fin 64) (o : Fin 16) :
    ((cfg3.win 3).blk t).view.emb (ix2 g o) = ix2 g o := by
  obtain ⟨e0, e1, e2, e3, e4, e5, e6, e7⟩ := idx_facts t
  refine funext fun a => Fin.ext ?_
  match a with
  | ⟨0, _⟩ => show win3_3.index t (0 : Fin 2) * 64 + 1 * g.val = g.val; omega
  | ⟨1, _⟩ => show win3_3.index t (1 : Fin 2) * 16 + 1 * o.val = o.val; omega

/-- What the one point writes back is the whole of `affine` of the arrays as the region finds them. -/
theorem flushed_eq (c : Dev nD) (t : Fin cfg3.N) :
    (dat3 V c).flushed 3 t = ((cfg3.win 3).blk t).view.read (Elt Ideal)
      (affine (V c main_call0_v52) (V c main_arg7) (V c main_call0_v53)) := by
  show (cfg3.win 3).cut (grid3.coords t) ((dat3 V c).after 3 t) = _
  rw [after3_3]
  unfold out3_3
  rw [View.canon_unit_zero hz]
  simp only [View.ld_unit_zero (S := S64x128) hz, View.ld_unit_zero (S := S128x16) hz, View.ld_unit_zero (S := S1x16) hz]
  funext j
  obtain ⟨g, o, rfl⟩ : ∃ (g : Fin 64) (o : Fin 16), j = ix2 g o := ⟨j 0, j 1, eq_ix2 j⟩
  show k3_pay1 (F := Ideal) (iblk3 V c 0 t) (iblk3 V c 1 t) (iblk3 V c 2 t) (ix2 g o)
    = affine (V c main_call0_v52) (V c main_arg7) (V c main_call0_v53) (((cfg3.win 3).blk t).view.emb (ix2 g o))
  refine (pay_apply (iblk3 V c 0 t) (iblk3 V c 1 t) (iblk3 V c 2 t) g o).trans ?_
  rw [blk_out t g o, blk_b V c t o]
  exact sum_add_congr (fun k => iblk3 V c 0 t (ix2 g k)) (fun k => iblk3 V c 1 t (ix2 k o))
    (fun k => V c main_call0_v52 (ix2 g k)) (fun k => V c main_arg7 (ix2 k o))
    (V c main_call0_v53 (ix2 (0 : Fin 1) o)) (fun k => blk_p V c t g k) (fun k => blk_w V c t k o)

theorem mem_blk (t : Fin cfg3.N) (i : S64x16.Idx) :
    i ∈ ((cfg3.win 3).blk t).view.set ↔ ∀ a : Fin 2, win3_3.index t a * S64x16.size a ≤ (i a).val
      ∧ (i a).val < win3_3.index t a * S64x16.size a + S64x16.size a := by
  show i ∈ ((View.whole main_v0).slice (win3_3.rect t)).set ↔ _
  rw [View.set_slice_whole, Rect.mem_set_unit]
  exact Iff.rfl

theorem cover (i : S64x16.Idx) :
    ∃ t : Fin cfg3.N, (cfg3.win 3).flush t = true ∧ i ∈ ((cfg3.win 3).blk t).view.set := by
  have hi0 : (i 0).val < 64 := (i 0).isLt
  have hi1 : (i 1).val < 16 := (i 1).isLt
  obtain ⟨e0, e1, e2, e3, e4, e5, e6, e7⟩ := idx_facts t3_0
  refine ⟨t3_0, flush3_3 t3_0, ?_⟩
  rw [mem_blk]
  intro a
  match a with
  | ⟨0, _⟩ =>
    show win3_3.index t3_0 (0 : Fin 2) * 64 ≤ (i 0).val ∧ (i 0).val < win3_3.index t3_0 (0 : Fin 2) * 64 + 64
    omega
  | ⟨1, _⟩ =>
    show win3_3.index t3_0 (1 : Fin 2) * 16 ≤ (i 1).val ∧ (i 1).val < win3_3.index t3_0 (1 : Fin 2) * 16 + 16
    omega

/-- The result array after the region. -/
theorem final (c : Dev nD) :
    (dat3 V c).arrAt 3 cfg3.N = affine (V c main_call0_v52) (V c main_arg7) (V c main_call0_v53) :=
  (dat3 V c).arrAt_eq_of_cover 3 _ (fun t _ => flushed_eq V c t) cover

end Cert.KernelIdeal.KReg3

end
-- ==== Proof.RSpec.lean ====
/-
  The kernel's result as one function of the argument arrays, written over the reference's own host stages.

  Both programs compute the edge lists, the per-node scale and the pooling with the same host operations; only the
  dense stages in between differ. Here the shared pieces are named once, over the reference's stage functions:
  * `dis e`: the per-node scale `1 / √deg` (zero where the degree is zero), and `disCol e` the same as a column;
  * `aggOf e H`: the rows of `H` gathered at the edges' sources and added up at the edges' targets;
  * `poolOf g h`: the rows of `h` added up per graph and divided by the graph's node count (at least one).
  `kernelOut` composes them with the kernel's three dense stages (`Cert.KAct`): two layers
  `max (aggOf (scaled product) · dis + bias) 0` and the final linear map.
-/
import proofs.«149602_j52415780880534_2_alg».proof.Proof.RefRead
import proofs.«149602_j52415780880534_2_alg».proof.Proof.KAct

noncomputable section

namespace Cert.ReferenceIdeal.RSpec

open Cert.ReferenceIdeal Cert.ReferenceIdeal.Gen Cert.ReferenceIdeal.ReadP Idealize.ShloMosaic Cert.KAct

/-- The per-node scale: the inverse square root of the node's degree, zero where the degree is zero. -/
def dis (e : IVec S2x800000 32) : FVec Ideal S50000 .f32 := val_main_v14 (F := Ideal) e

/-- The per-node scale as a column. -/
def disCol (e : IVec S2x800000 32) : FVec Ideal S50000x1 .f32 := shapeCast S50000x1 (dis e)

/-- Rows of `H` gathered at the edges' sources (self-loops appended) and added up at the edges' targets. -/
def aggOf (e : IVec S2x800000 32) (H : FVec Ideal S50000x128 .f32) : FVec Ideal S50000x128 .f32 :=
  Host.scatterAdd scatter_S50000x128_S850000x1_S850000x128_1_0_0_1 (val_main_v41 (F := Ideal)) (val_main_v42 (F := Ideal) e)
    (Host.gather gather_S50000x128_S850000x1_S850000x128_1_0_n_n_0_1_1128 H (val_main_v36 (F := Ideal) e))

/-- Rows of `h` added up per graph and divided by the graph's node count, at least one. -/
def poolOf (g : IVec S50000 32) (h : FVec Ideal S50000x128 .f32) : FVec Ideal S64x128 .f32 :=
  Host.divf (Host.scatterAdd scatter_S64x128_S50000x1_S50000x128_1_0_0_1 (val_main_v81 (F := Ideal)) (val_main_v82 (F := Ideal) g) h)
    (val_main_v91 (F := Ideal) g)

/-- The kernel's result, with the per-node scale column `dc` it uses: two message-passing layers over the scaled
    products, the pooling, the final linear map. -/
def kernelOut (dc : FVec Ideal S50000x1 .f32) (x0 : FVec Ideal S50000x128 .f32) (x1 : IVec S2x800000 32) (x2 : IVec S50000 32) (x3 : FVec Ideal S128x128 .f32)
    (x4 : FVec Ideal S128 .f32) (x5 : FVec Ideal S128x128 .f32) (x6 : FVec Ideal S128 .f32) (x7 : FVec Ideal S128x16 .f32)
    (x8 : FVec Ideal S16 .f32) : FVec Ideal S64x16 .f32 :=
  affine
    (poolOf x2
      (act (R := 50000)
        (aggOf x1
          (scaledProduct
            (act (R := 50000) (aggOf x1 (scaledProduct x0 x3 dc)) dc (shapeCast S1x128 x4))
            x5 dc))
        dc (shapeCast S1x128 x6)))
    x7 (shapeCast S1x16 x8)

end Cert.ReferenceIdeal.RSpec

end
-- ==== Proof.LibCat2.lean ====
/-
  Two arrays joined along an axis, as a function of the two arrays.

  The programs write the join of two arrays as an operation on a list of (shape, array) pairs, under a shape fact
  stated of that list; cat2 is the same join with the two arrays as plain arguments, so that an equation between the
  joined arrays follows from equations between the parts (a rewriting pass can then reach the two operands, which it
  cannot do through the list). Generic in the shapes, the axis and the element type.
-/
import Idealize.ShloMosaic.PureOps.Ideal.Laws

namespace Cert.LibCat2

open Idealize.ShloMosaic

/-- The join of p (shape s1) and q (shape s2) along axis a of the result shape t. -/
def cat2 {α : Type} (t : Shape) (a : Fin t.rank) (s1 s2 : Shape) (h : Shape.Concatenates [s1, s2] t a)
    (p : s1.Idx → α) (q : s2.Idx → α) : t.Idx → α :=
  concatenate t a [⟨s1, p⟩, ⟨s2, q⟩] h

/-- The join written on the list of pairs is cat2 of the two arrays. -/
theorem cat2_fun {α : Type} (t : Shape) (a : Fin t.rank) (s1 s2 : Shape) (h : Shape.Concatenates [s1, s2] t a) :
    (fun (p : s1.Idx → α) (q : s2.Idx → α) => concatenate t a [⟨s1, p⟩, ⟨s2, q⟩] h) = cat2 t a s1 s2 h := rfl

end Cert.LibCat2
-- ==== Proof.LibBufCast.lean ====
/-
  A tensor value carried to its buffer's type and back is the value.

  A typed reference pairs a buffer with the fact that the buffer's type is the value's type; `toBuf` carries a value
  along that fact to the buffer's type and `ofBuf` carries it back. The round trip is the identity.
-/
import Idealize.ShloMosaic.Lib.StableHlo

namespace Cert.LibBufCast

open Idealize.ShloMosaic Idealize.ShloMosaic.StableHlo

/-- `ofBuf` after `toBuf` at the same typed reference is the identity. -/
theorem ofBuf_toBuf {sig : RefSig} {T : BufTy} {Val : EltTy → Type} (x : TRef sig T) (v : T.Contents Val) :
    x.ofBuf (x.toBuf v) = v := by
  obtain ⟨r, h, h2, h3⟩ := x
  subst h
  rfl

end Cert.LibBufCast
-- ==== Proof.KChainA.lean ====
/-
  The fold through the idealized kernel's program, first part: up to region 0's exit.

  `Gen.W1` and `Gen.W2` are the buffers' contents after the first stretch of host operations and after region 0. The
  first stretch builds the edge lists and the per-node scale from the edge index, as the reference does; region 0
  leaves the scaled product of `x` and `W1`. A buffer nobody writes in between keeps its contents.
-/
import proofs.«149602_j52415780880534_2_alg».proof.Proof.KReg0
import proofs.«149602_j52415780880534_2_alg».proof.Proof.KReg1
import proofs.«149602_j52415780880534_2_alg».proof.Proof.KReg2
import proofs.«149602_j52415780880534_2_alg».proof.Proof.KReg3
import proofs.«149602_j52415780880534_2_alg».proof.Proof.RSpec
import proofs.«149602_j52415780880534_2_alg».proof.Proof.LibCat2
import proofs.«149602_j52415780880534_2_alg».proof.Proof.LibBufCast
import Idealize.ShloMosaic.Lib.StableHlo.Run

set_option maxRecDepth 16384

noncomputable section

namespace Cert.KernelIdeal.KChain

open Cert.KernelIdeal Cert.KernelIdeal.Gen Idealize.ShloMosaic Idealize.ShloMosaic.TcCoe Idealize.SL.Sem
open Idealize.ShloMosaic.StableHlo
open Cert.KAct
open Cert.ReferenceIdeal.RSpec (dis disCol aggOf poolOf kernelOut)

variable (m : (ℓ : Loc nD τ sig) → Buf (Elt Ideal) ℓ) (ρ : Dev nD → PrngReg) (c : Dev nD)

/-! ## After the first stretch: the edge lists, the per-node scale, the arguments -/

theorem at1_src' : (TRef.of main_call0_v3 : TRef sig ⟨S850000, .i32⟩).ofBuf (W1 m ρ c (Proc.devRef .tc main_call0_v3)) = Cert.ReferenceIdeal.ReadP.val_main_v3 (F := Ideal) (m ((c : Thread nD τ).loc main_arg1)) := by
  dsimp only [W1, hostOps0, main_call0_call0]
  simp only [Cert.LibCat2.cat2_fun]
  after_results_simp
  simp only [Cert.LibBufCast.ofBuf_toBuf]
  rfl
theorem at1_src : W1 m ρ c (Proc.devRef .tc main_call0_v3) = Cert.ReferenceIdeal.ReadP.val_main_v3 (F := Ideal) (m ((c : Thread nD τ).loc main_arg1)) := at1_src' m ρ c
theorem at1_dst' : (TRef.of main_call0_v6 : TRef sig ⟨S850000, .i32⟩).ofBuf (W1 m ρ c (Proc.devRef .tc main_call0_v6)) = Cert.ReferenceIdeal.ReadP.val_main_v6 (F := Ideal) (m ((c : Thread nD τ).loc main_arg1)) := by
  dsimp only [W1, hostOps0, main_call0_call0]
  simp only [Cert.LibCat2.cat2_fun]
  after_results_simp
  simp only [Cert.LibBufCast.ofBuf_toBuf]
  rfl
theorem at1_dst : W1 m ρ c (Proc.devRef .tc main_call0_v6) = Cert.ReferenceIdeal.ReadP.val_main_v6 (F := Ideal) (m ((c : Thread nD τ).loc main_arg1)) := at1_dst' m ρ c
/-- The per-node scale before it is laid out as a column. -/
theorem at1_scale' : (TRef.of main_call0_v14 : TRef sig ⟨S50000, .f32⟩).ofBuf (W1 m ρ c (Proc.devRef .tc main_call0_v14)) = dis (m ((c : Thread nD τ).loc main_arg1)) := by
  dsimp only [W1, hostOps0, main_call0_call0]
  simp only [Cert.LibCat2.cat2_fun]
  after_results_simp
  simp only [Cert.LibBufCast.ofBuf_toBuf]
  rfl
theorem at1_scale : W1 m ρ c (Proc.devRef .tc main_call0_v14) = dis (m ((c : Thread nD τ).loc main_arg1)) := at1_scale' m ρ c
/-- The column is the reshape of the scale just computed. -/
theorem at1_col : W1 m ρ c (Proc.devRef .tc main_call0_v15)
    = shapeCast S50000x1 (W1 m ρ c (Proc.devRef .tc main_call0_v14)) shapeCasts_S50000_S50000x1 := by
  dsimp only [W1, hostOps0, main_call0_call0]
  simp only [Cert.LibCat2.cat2_fun]
  after_results_simp
  rfl
theorem at1_dis : W1 m ρ c (Proc.devRef .tc main_call0_v15) = disCol (m ((c : Thread nD τ).loc main_arg1)) :=
  (at1_col m ρ c).trans (by rw [at1_scale]; rfl)
theorem at1_arg0 : W1 m ρ c (Proc.devRef .tc main_arg0) = (m ((c : Thread nD τ).loc main_arg0)) := by dsimp only [W1, hostOps0]; after_results_simp <;> rfl
theorem at1_arg3 : W1 m ρ c (Proc.devRef .tc main_arg3) = (m ((c : Thread nD τ).loc main_arg3)) := by dsimp only [W1, hostOps0]; after_results_simp <;> rfl
theorem at1_arg4 : W1 m ρ c (Proc.devRef .tc main_arg4) = (m ((c : Thread nD τ).loc main_arg4)) := by dsimp only [W1, hostOps0]; after_results_simp <;> rfl
theorem at1_arg5 : W1 m ρ c (Proc.devRef .tc main_arg5) = (m ((c : Thread nD τ).loc main_arg5)) := by dsimp only [W1, hostOps0]; after_results_simp <;> rfl
theorem at1_arg6 : W1 m ρ c (Proc.devRef .tc main_arg6) = (m ((c : Thread nD τ).loc main_arg6)) := by dsimp only [W1, hostOps0]; after_results_simp <;> rfl
theorem at1_arg2 : W1 m ρ c (Proc.devRef .tc main_arg2) = (m ((c : Thread nD τ).loc main_arg2)) := by dsimp only [W1, hostOps0]; after_results_simp <;> rfl
theorem at1_arg7 : W1 m ρ c (Proc.devRef .tc main_arg7) = (m ((c : Thread nD τ).loc main_arg7)) := by dsimp only [W1, hostOps0]; after_results_simp <;> rfl
theorem at1_arg8 : W1 m ρ c (Proc.devRef .tc main_arg8) = (m ((c : Thread nD τ).loc main_arg8)) := by dsimp only [W1, hostOps0]; after_results_simp <;> rfl

/-! ## After region 0 -/

theorem at2_arg4 : W2 m ρ c (Proc.devRef .tc main_arg4) = (m ((c : Thread nD τ).loc main_arg4)) :=
  (W2_of_ne m ρ c main_arg4 (by decide)).trans (at1_arg4 m ρ c)
theorem at2_arg5 : W2 m ρ c (Proc.devRef .tc main_arg5) = (m ((c : Thread nD τ).loc main_arg5)) :=
  (W2_of_ne m ρ c main_arg5 (by decide)).trans (at1_arg5 m ρ c)
theorem at2_arg6 : W2 m ρ c (Proc.devRef .tc main_arg6) = (m ((c : Thread nD τ).loc main_arg6)) :=
  (W2_of_ne m ρ c main_arg6 (by decide)).trans (at1_arg6 m ρ c)
theorem at2_arg2 : W2 m ρ c (Proc.devRef .tc main_arg2) = (m ((c : Thread nD τ).loc main_arg2)) :=
  (W2_of_ne m ρ c main_arg2 (by decide)).trans (at1_arg2 m ρ c)
theorem at2_arg7 : W2 m ρ c (Proc.devRef .tc main_arg7) = (m ((c : Thread nD τ).loc main_arg7)) :=
  (W2_of_ne m ρ c main_arg7 (by decide)).trans (at1_arg7 m ρ c)
theorem at2_arg8 : W2 m ρ c (Proc.devRef .tc main_arg8) = (m ((c : Thread nD τ).loc main_arg8)) :=
  (W2_of_ne m ρ c main_arg8 (by decide)).trans (at1_arg8 m ρ c)
theorem at2_src : W2 m ρ c (Proc.devRef .tc main_call0_v3) = Cert.ReferenceIdeal.ReadP.val_main_v3 (F := Ideal) (m ((c : Thread nD τ).loc main_arg1)) :=
  (W2_of_ne m ρ c main_call0_v3 (by decide)).trans (at1_src m ρ c)
theorem at2_dst : W2 m ρ c (Proc.devRef .tc main_call0_v6) = Cert.ReferenceIdeal.ReadP.val_main_v6 (F := Ideal) (m ((c : Thread nD τ).loc main_arg1)) :=
  (W2_of_ne m ρ c main_call0_v6 (by decide)).trans (at1_dst m ρ c)
theorem at2_dis : W2 m ρ c (Proc.devRef .tc main_call0_v15) = disCol (m ((c : Thread nD τ).loc main_arg1)) :=
  ((W2_arr m ρ c 2).trans (((dat0 (V1 m ρ) c).arrAt_in 2 rfl _).trans (A_eq0 (V1 m ρ) c 2))).trans (at1_dis m ρ c)

/-- Region 0 leaves the scaled product of `x` and `W1`. -/
theorem at2_hs : W2 m ρ c (Proc.devRef .tc main_call0_v16) = scaledProduct (m ((c : Thread nD τ).loc main_arg0)) (m ((c : Thread nD τ).loc main_arg3)) (disCol (m ((c : Thread nD τ).loc main_arg1))) :=
  (W2_arr m ρ c 3).trans ((Cert.KernelIdeal.KReg0.final (V1 m ρ) c).trans (by
    show scaledProduct (W1 m ρ c (Proc.devRef .tc main_arg0)) (W1 m ρ c (Proc.devRef .tc main_arg3)) (W1 m ρ c (Proc.devRef .tc main_call0_v15)) = _
    rw [at1_arg0, at1_arg3, at1_dis]))

end Cert.KernelIdeal.KChain

end
-- ==== Proof.KChainB.lean ====
/-
  The fold through the idealized kernel's program, second part: up to region 1's exit.

  The second stretch gathers the scaled product's rows at the edges' sources and adds them up at the edges' targets;
  region 1 leaves the first layer's activation times `W2`, scaled. A buffer nobody writes in between keeps its
  contents.
-/
import proofs.«149602_j52415780880534_2_alg».proof.Proof.KChainA
import proofs.«149602_j52415780880534_2_alg».proof.Proof.KReg0
import proofs.«149602_j52415780880534_2_alg».proof.Proof.KReg1
import proofs.«149602_j52415780880534_2_alg».proof.Proof.KReg2
import proofs.«149602_j52415780880534_2_alg».proof.Proof.KReg3
import proofs.«149602_j52415780880534_2_alg».proof.Proof.RSpec
import proofs.«149602_j52415780880534_2_alg».proof.Proof.LibCat2
import proofs.«149602_j52415780880534_2_alg».proof.Proof.LibBufCast
import Idealize.ShloMosaic.Lib.StableHlo.Run

set_option maxRecDepth 16384

noncomputable section

namespace Cert.KernelIdeal.KChain

open Cert.KernelIdeal Cert.KernelIdeal.Gen Idealize.ShloMosaic Idealize.ShloMosaic.TcCoe Idealize.SL.Sem
open Idealize.ShloMosaic.StableHlo
open Cert.KAct
open Cert.ReferenceIdeal.RSpec (dis disCol aggOf poolOf kernelOut)

variable (m : (ℓ : Loc nD τ sig) → Buf (Elt Ideal) ℓ) (ρ : Dev nD → PrngReg) (c : Dev nD)

/-! ## After the second stretch -/

theorem at3_arg5 : W3 m ρ c (Proc.devRef .tc main_arg5) = (m ((c : Thread nD τ).loc main_arg5)) :=
  (show W3 m ρ c (Proc.devRef .tc main_arg5) = W2 m ρ c (Proc.devRef .tc main_arg5) from by dsimp only [W3, hostOps1]; after_results_simp <;> rfl).trans (at2_arg5 m ρ c)
theorem at3_arg6 : W3 m ρ c (Proc.devRef .tc main_arg6) = (m ((c : Thread nD τ).loc main_arg6)) :=
  (show W3 m ρ c (Proc.devRef .tc main_arg6) = W2 m ρ c (Proc.devRef .tc main_arg6) from by dsimp only [W3, hostOps1]; after_results_simp <;> rfl).trans (at2_arg6 m ρ c)
theorem at3_arg2 : W3 m ρ c (Proc.devRef .tc main_arg2) = (m ((c : Thread nD τ).loc main_arg2)) :=
  (show W3 m ρ c (Proc.devRef .tc main_arg2) = W2 m ρ c (Proc.devRef .tc main_arg2) from by dsimp only [W3, hostOps1]; after_results_simp <;> rfl).trans (at2_arg2 m ρ c)
theorem at3_arg7 : W3 m ρ c (Proc.devRef .tc main_arg7) = (m ((c : Thread nD τ).loc main_arg7)) :=
  (show W3 m ρ c (Proc.devRef .tc main_arg7) = W2 m ρ c (Proc.devRef .tc main_arg7) from by dsimp only [W3, hostOps1]; after_results_simp <;> rfl).trans (at2_arg7 m ρ c)
theorem at3_arg8 : W3 m ρ c (Proc.devRef .tc main_arg8) = (m ((c : Thread nD τ).loc main_arg8)) :=
  (show W3 m ρ c (Proc.devRef .tc main_arg8) = W2 m ρ c (Proc.devRef .tc main_arg8) from by dsimp only [W3, hostOps1]; after_results_simp <;> rfl).trans (at2_arg8 m ρ c)
theorem at3_src : W3 m ρ c (Proc.devRef .tc main_call0_v3) = Cert.ReferenceIdeal.ReadP.val_main_v3 (F := Ideal) (m ((c : Thread nD τ).loc main_arg1)) :=
  (show W3 m ρ c (Proc.devRef .tc main_call0_v3) = W2 m ρ c (Proc.devRef .tc main_call0_v3) from by dsimp only [W3, hostOps1]; after_results_simp <;> rfl).trans (at2_src m ρ c)
theorem at3_dst : W3 m ρ c (Proc.devRef .tc main_call0_v6) = Cert.ReferenceIdeal.ReadP.val_main_v6 (F := Ideal) (m ((c : Thread nD τ).loc main_arg1)) :=
  (show W3 m ρ c (Proc.devRef .tc main_call0_v6) = W2 m ρ c (Proc.devRef .tc main_call0_v6) from by dsimp only [W3, hostOps1]; after_results_simp <;> rfl).trans (at2_dst m ρ c)
theorem at3_dis : W3 m ρ c (Proc.devRef .tc main_call0_v15) = disCol (m ((c : Thread nD τ).loc main_arg1)) :=
  (show W3 m ρ c (Proc.devRef .tc main_call0_v15) = W2 m ρ c (Proc.devRef .tc main_call0_v15) from by dsimp only [W3, hostOps1]; after_results_simp <;> rfl).trans (at2_dis m ρ c)

/-- The second stretch gathers the scaled product's rows at the sources and adds them up at the targets. -/
theorem at3_agg' : (TRef.of main_call0_v26 : TRef sig ⟨S50000x128, .f32⟩).ofBuf (W3 m ρ c (Proc.devRef .tc main_call0_v26)) = aggOf (m ((c : Thread nD τ).loc main_arg1)) (scaledProduct (m ((c : Thread nD τ).loc main_arg0)) (m ((c : Thread nD τ).loc main_arg3)) (disCol (m ((c : Thread nD τ).loc main_arg1)))) := by
  dsimp only [W3, hostOps1, main_call0_call0]
  after_results_simp
  simp only [Cert.LibBufCast.ofBuf_toBuf]
  rw [at2_src, at2_dst, at2_hs]
  rfl
theorem at3_agg : W3 m ρ c (Proc.devRef .tc main_call0_v26) = aggOf (m ((c : Thread nD τ).loc main_arg1)) (scaledProduct (m ((c : Thread nD τ).loc main_arg0)) (m ((c : Thread nD τ).loc main_arg3)) (disCol (m ((c : Thread nD τ).loc main_arg1)))) := at3_agg' m ρ c
theorem at3_bias : W3 m ρ c (Proc.devRef .tc main_call0_v27) = shapeCast S1x128 (m ((c : Thread nD τ).loc main_arg4)) shapeCasts_S128_S1x128 := by
  dsimp only [W3, hostOps1]
  after_results_simp
  rw [at2_arg4]
  rfl

/-! ## After region 1 -/

theorem at4_arg6 : W4 m ρ c (Proc.devRef .tc main_arg6) = (m ((c : Thread nD τ).loc main_arg6)) :=
  (W4_of_ne m ρ c main_arg6 (by decide)).trans (at3_arg6 m ρ c)
theorem at4_arg2 : W4 m ρ c (Proc.devRef .tc main_arg2) = (m ((c : Thread nD τ).loc main_arg2)) :=
  (W4_of_ne m ρ c main_arg2 (by decide)).trans (at3_arg2 m ρ c)
theorem at4_arg7 : W4 m ρ c (Proc.devRef .tc main_arg7) = (m ((c : Thread nD τ).loc main_arg7)) :=
  (W4_of_ne m ρ c main_arg7 (by decide)).trans (at3_arg7 m ρ c)
theorem at4_arg8 : W4 m ρ c (Proc.devRef .tc main_arg8) = (m ((c : Thread nD τ).loc main_arg8)) :=
  (W4_of_ne m ρ c main_arg8 (by decide)).trans (at3_arg8 m ρ c)
theorem at4_src : W4 m ρ c (Proc.devRef .tc main_call0_v3) = Cert.ReferenceIdeal.ReadP.val_main_v3 (F := Ideal) (m ((c : Thread nD τ).loc main_arg1)) :=
  (W4_of_ne m ρ c main_call0_v3 (by decide)).trans (at3_src m ρ c)
theorem at4_dst : W4 m ρ c (Proc.devRef .tc main_call0_v6) = Cert.ReferenceIdeal.ReadP.val_main_v6 (F := Ideal) (m ((c : Thread nD τ).loc main_arg1)) :=
  (W4_of_ne m ρ c main_call0_v6 (by decide)).trans (at3_dst m ρ c)
theorem at4_dis : W4 m ρ c (Proc.devRef .tc main_call0_v15) = disCol (m ((c : Thread nD τ).loc main_arg1)) :=
  ((W4_arr m ρ c 1).trans (((dat1 (V3 m ρ) c).arrAt_in 1 rfl _).trans (A_eq1 (V3 m ρ) c 1))).trans (at3_dis m ρ c)

/-- Region 1 leaves the first layer's activation times `W2`, scaled. -/
theorem at4_hs : W4 m ρ c (Proc.devRef .tc main_call0_v28) = scaledProduct (act (R := 50000) (aggOf (m ((c : Thread nD τ).loc main_arg1)) (scaledProduct (m ((c : Thread nD τ).loc main_arg0)) (m ((c : Thread nD τ).loc main_arg3)) (disCol (m ((c : Thread nD τ).loc main_arg1))))) (disCol (m ((c : Thread nD τ).loc main_arg1))) (shapeCast S1x128 (m ((c : Thread nD τ).loc main_arg4)) shapeCasts_S128_S1x128)) (m ((c : Thread nD τ).loc main_arg5)) (disCol (m ((c : Thread nD τ).loc main_arg1))) :=
  (W4_arr m ρ c 4).trans ((Cert.KernelIdeal.KReg1.final (V3 m ρ) c).trans (by
    show scaledProduct (act (R := 50000) (W3 m ρ c (Proc.devRef .tc main_call0_v26)) (W3 m ρ c (Proc.devRef .tc main_call0_v15)) (W3 m ρ c (Proc.devRef .tc main_call0_v27)))
      (W3 m ρ c (Proc.devRef .tc main_arg5)) (W3 m ρ c (Proc.devRef .tc main_call0_v15)) = _
    rw [at3_agg, at3_dis, at3_bias, at3_arg5]))

end Cert.KernelIdeal.KChain

end
-- ==== Proof.KChainC.lean ====
/-
  The fold through the idealized kernel's program, third part: up to region 2's exit.

  The third stretch aggregates the second scaled product over the edges; region 2 leaves the second layer's
  activation. A buffer nobody writes in between keeps its contents.
-/
import proofs.«149602_j52415780880534_2_alg».proof.Proof.KChainB
import proofs.«149602_j52415780880534_2_alg».proof.Proof.KReg0
import proofs.«149602_j52415780880534_2_alg».proof.Proof.KReg1
import proofs.«149602_j52415780880534_2_alg».proof.Proof.KReg2
import proofs.«149602_j52415780880534_2_alg».proof.Proof.KReg3
import proofs.«149602_j52415780880534_2_alg».proof.Proof.RSpec
import proofs.«149602_j52415780880534_2_alg».proof.Proof.LibCat2
import proofs.«149602_j52415780880534_2_alg».proof.Proof.LibBufCast
import Idealize.ShloMosaic.Lib.StableHlo.Run

set_option maxRecDepth 16384

noncomputable section

namespace Cert.KernelIdeal.KChain

open Cert.KernelIdeal Cert.KernelIdeal.Gen Idealize.ShloMosaic Idealize.ShloMosaic.TcCoe Idealize.SL.Sem
open Idealize.ShloMosaic.StableHlo
open Cert.KAct
open Cert.ReferenceIdeal.RSpec (dis disCol aggOf poolOf kernelOut)

variable (m : (ℓ : Loc nD τ sig) → Buf (Elt Ideal) ℓ) (ρ : Dev nD → PrngReg) (c : Dev nD)

/-! ## After the third stretch -/

theorem at5_arg2 : W5 m ρ c (Proc.devRef .tc main_arg2) = (m ((c : Thread nD τ).loc main_arg2)) :=
  (show W5 m ρ c (Proc.devRef .tc main_arg2) = W4 m ρ c (Proc.devRef .tc main_arg2) from by dsimp only [W5, hostOps2]; after_results_simp <;> rfl).trans (at4_arg2 m ρ c)
theorem at5_arg7 : W5 m ρ c (Proc.devRef .tc main_arg7) = (m ((c : Thread nD τ).loc main_arg7)) :=
  (show W5 m ρ c (Proc.devRef .tc main_arg7) = W4 m ρ c (Proc.devRef .tc main_arg7) from by dsimp only [W5, hostOps2]; after_results_simp <;> rfl).trans (at4_arg7 m ρ c)
theorem at5_arg8 : W5 m ρ c (Proc.devRef .tc main_arg8) = (m ((c : Thread nD τ).loc main_arg8)) :=
  (show W5 m ρ c (Proc.devRef .tc main_arg8) = W4 m ρ c (Proc.devRef .tc main_arg8) from by dsimp only [W5, hostOps2]; after_results_simp <;> rfl).trans (at4_arg8 m ρ c)
theorem at5_dis : W5 m ρ c (Proc.devRef .tc main_call0_v15) = disCol (m ((c : Thread nD τ).loc main_arg1)) :=
  (show W5 m ρ c (Proc.devRef .tc main_call0_v15) = W4 m ρ c (Proc.devRef .tc main_call0_v15) from by dsimp only [W5, hostOps2]; after_results_simp <;> rfl).trans (at4_dis m ρ c)

/-- The third stretch aggregates again. -/
theorem at5_agg' : (TRef.of main_call0_v38 : TRef sig ⟨S50000x128, .f32⟩).ofBuf (W5 m ρ c (Proc.devRef .tc main_call0_v38)) = aggOf (m ((c : Thread nD τ).loc main_arg1)) (scaledProduct (act (R := 50000) (aggOf (m ((c : Thread nD τ).loc main_arg1)) (scaledProduct (m ((c : Thread nD τ).loc main_arg0)) (m ((c : Thread nD τ).loc main_arg3)) (disCol (m ((c : Thread nD τ).loc main_arg1))))) (disCol (m ((c : Thread nD τ).loc main_arg1))) (shapeCast S1x128 (m ((c : Thread nD τ).loc main_arg4)) shapeCasts_S128_S1x128)) (m ((c : Thread nD τ).loc main_arg5)) (disCol (m ((c : Thread nD τ).loc main_arg1)))) := by
  dsimp only [W5, hostOps2, main_call0_call0]
  after_results_simp
  simp only [Cert.LibBufCast.ofBuf_toBuf]
  rw [at4_src, at4_dst, at4_hs]
  rfl
theorem at5_agg : W5 m ρ c (Proc.devRef .tc main_call0_v38) = aggOf (m ((c : Thread nD τ).loc main_arg1)) (scaledProduct (act (R := 50000) (aggOf (m ((c : Thread nD τ).loc main_arg1)) (scaledProduct (m ((c : Thread nD τ).loc main_arg0)) (m ((c : Thread nD τ).loc main_arg3)) (disCol (m ((c : Thread nD τ).loc main_arg1))))) (disCol (m ((c : Thread nD τ).loc main_arg1))) (shapeCast S1x128 (m ((c : Thread nD τ).loc main_arg4)) shapeCasts_S128_S1x128)) (m ((c : Thread nD τ).loc main_arg5)) (disCol (m ((c : Thread nD τ).loc main_arg1)))) := at5_agg' m ρ c
theorem at5_bias : W5 m ρ c (Proc.devRef .tc main_call0_v39) = shapeCast S1x128 (m ((c : Thread nD τ).loc main_arg6)) shapeCasts_S128_S1x128 := by
  dsimp only [W5, hostOps2]
  after_results_simp
  rw [at4_arg6]
  rfl

/-! ## After region 2 -/

theorem at6_arg2 : W6 m ρ c (Proc.devRef .tc main_arg2) = (m ((c : Thread nD τ).loc main_arg2)) :=
  (W6_of_ne m ρ c main_arg2 (by decide)).trans (at5_arg2 m ρ c)
theorem at6_arg7 : W6 m ρ c (Proc.devRef .tc main_arg7) = (m ((c : Thread nD τ).loc main_arg7)) :=
  (W6_of_ne m ρ c main_arg7 (by decide)).trans (at5_arg7 m ρ c)
theorem at6_arg8 : W6 m ρ c (Proc.devRef .tc main_arg8) = (m ((c : Thread nD τ).loc main_arg8)) :=
  (W6_of_ne m ρ c main_arg8 (by decide)).trans (at5_arg8 m ρ c)

/-- Region 2 leaves the second layer's activation. -/
theorem at6_h : W6 m ρ c (Proc.devRef .tc main_call0_v40) = act (R := 50000) (aggOf (m ((c : Thread nD τ).loc main_arg1)) (scaledProduct (act (R := 50000) (aggOf (m ((c : Thread nD τ).loc main_arg1)) (scaledProduct (m ((c : Thread nD τ).loc main_arg0)) (m ((c : Thread nD τ).loc main_arg3)) (disCol (m ((c : Thread nD τ).loc main_arg1))))) (disCol (m ((c : Thread nD τ).loc main_arg1))) (shapeCast S1x128 (m ((c : Thread nD τ).loc main_arg4)) shapeCasts_S128_S1x128)) (m ((c : Thread nD τ).loc main_arg5)) (disCol (m ((c : Thread nD τ).loc main_arg1))))) (disCol (m ((c : Thread nD τ).loc main_arg1))) (shapeCast S1x128 (m ((c : Thread nD τ).loc main_arg6)) shapeCasts_S128_S1x128) :=
  (W6_arr m ρ c 3).trans ((Cert.KernelIdeal.KReg2.final (V5 m ρ) c).trans (by
    show act (R := 50000) (W5 m ρ c (Proc.devRef .tc main_call0_v38)) (W5 m ρ c (Proc.devRef .tc main_call0_v15)) (W5 m ρ c (Proc.devRef .tc main_call0_v39)) = _
    rw [at5_agg, at5_dis, at5_bias]))

end Cert.KernelIdeal.KChain

end
-- ==== Proof.KChainD.lean ====
/-
  The fold through the idealized kernel's program, last part: the result.

  The fourth stretch pools the second layer's activation per graph; region 3 leaves the final linear map of the pooled
  array. Composed with the earlier parts, the result array ends at `RSpec.kernelOut` of the argument arrays.
-/
import proofs.«149602_j52415780880534_2_alg».proof.Proof.KChainC
import proofs.«149602_j52415780880534_2_alg».proof.Proof.KReg0
import proofs.«149602_j52415780880534_2_alg».proof.Proof.KReg1
import proofs.«149602_j52415780880534_2_alg».proof.Proof.KReg2
import proofs.«149602_j52415780880534_2_alg».proof.Proof.KReg3
import proofs.«149602_j52415780880534_2_alg».proof.Proof.RSpec
import proofs.«149602_j52415780880534_2_alg».proof.Proof.LibCat2
import proofs.«149602_j52415780880534_2_alg».proof.Proof.LibBufCast
import Idealize.ShloMosaic.Lib.StableHlo.Run

set_option maxRecDepth 16384

noncomputable section

namespace Cert.KernelIdeal.KChain

open Cert.KernelIdeal Cert.KernelIdeal.Gen Idealize.ShloMosaic Idealize.ShloMosaic.TcCoe Idealize.SL.Sem
open Idealize.ShloMosaic.StableHlo
open Cert.KAct
open Cert.ReferenceIdeal.RSpec (dis disCol aggOf poolOf kernelOut)

variable (m : (ℓ : Loc nD τ sig) → Buf (Elt Ideal) ℓ) (ρ : Dev nD → PrngReg) (c : Dev nD)

/-! ## After the fourth stretch -/

theorem at7_arg7 : W7 m ρ c (Proc.devRef .tc main_arg7) = (m ((c : Thread nD τ).loc main_arg7)) :=
  (show W7 m ρ c (Proc.devRef .tc main_arg7) = W6 m ρ c (Proc.devRef .tc main_arg7) from by dsimp only [W7, hostOps3]; after_results_simp <;> rfl).trans (at6_arg7 m ρ c)

/-- The fourth stretch pools the activation per graph. -/
theorem at7_pool' : (TRef.of main_call0_v52 : TRef sig ⟨S64x128, .f32⟩).ofBuf (W7 m ρ c (Proc.devRef .tc main_call0_v52)) = poolOf (m ((c : Thread nD τ).loc main_arg2)) (act (R := 50000) (aggOf (m ((c : Thread nD τ).loc main_arg1)) (scaledProduct (act (R := 50000) (aggOf (m ((c : Thread nD τ).loc main_arg1)) (scaledProduct (m ((c : Thread nD τ).loc main_arg0)) (m ((c : Thread nD τ).loc main_arg3)) (disCol (m ((c : Thread nD τ).loc main_arg1))))) (disCol (m ((c : Thread nD τ).loc main_arg1))) (shapeCast S1x128 (m ((c : Thread nD τ).loc main_arg4)) shapeCasts_S128_S1x128)) (m ((c : Thread nD τ).loc main_arg5)) (disCol (m ((c : Thread nD τ).loc main_arg1))))) (disCol (m ((c : Thread nD τ).loc main_arg1))) (shapeCast S1x128 (m ((c : Thread nD τ).loc main_arg6)) shapeCasts_S128_S1x128)) := by
  dsimp only [W7, hostOps3, main_call0_call0]
  after_results_simp
  simp only [Cert.LibBufCast.ofBuf_toBuf]
  rw [at6_arg2, at6_h]
  rfl
theorem at7_pool : W7 m ρ c (Proc.devRef .tc main_call0_v52) = poolOf (m ((c : Thread nD τ).loc main_arg2)) (act (R := 50000) (aggOf (m ((c : Thread nD τ).loc main_arg1)) (scaledProduct (act (R := 50000) (aggOf (m ((c : Thread nD τ).loc main_arg1)) (scaledProduct (m ((c : Thread nD τ).loc main_arg0)) (m ((c : Thread nD τ).loc main_arg3)) (disCol (m ((c : Thread nD τ).loc main_arg1))))) (disCol (m ((c : Thread nD τ).loc main_arg1))) (shapeCast S1x128 (m ((c : Thread nD τ).loc main_arg4)) shapeCasts_S128_S1x128)) (m ((c : Thread nD τ).loc main_arg5)) (disCol (m ((c : Thread nD τ).loc main_arg1))))) (disCol (m ((c : Thread nD τ).loc main_arg1))) (shapeCast S1x128 (m ((c : Thread nD τ).loc main_arg6)) shapeCasts_S128_S1x128)) := at7_pool' m ρ c
theorem at7_bias : W7 m ρ c (Proc.devRef .tc main_call0_v53) = shapeCast S1x16 (m ((c : Thread nD τ).loc main_arg8)) shapeCasts_S16_S1x16 := by
  dsimp only [W7, hostOps3]
  after_results_simp
  rw [at6_arg8]
  rfl

/-! ## The result -/

/-- Region 3 leaves the final linear map of the pooled activation: the program's result is `kernelOut` of the
    arguments, with the scale column the first stretch computed. -/
theorem result : W8 m ρ c (Proc.devRef .tc main_v0)
    = kernelOut (disCol (m ((c : Thread nD τ).loc main_arg1))) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (W8_arr m ρ c 3).trans ((Cert.KernelIdeal.KReg3.final (V7 m ρ) c).trans (by
    show affine (W7 m ρ c (Proc.devRef .tc main_call0_v52)) (W7 m ρ c (Proc.devRef .tc main_arg7)) (W7 m ρ c (Proc.devRef .tc main_call0_v53)) = _
    rw [at7_pool, at7_arg7, at7_bias]
    rfl))

end Cert.KernelIdeal.KChain

end
-- ==== Proof.LibSegScale.lean ====
/-
  Sums of extended reals scaled by a nonnegative real number.

  On the extended reals multiplication does not distribute over addition in general (an infinite factor, or a sum of
  opposite infinities, breaks it), but a NONNEGATIVE REAL factor `d` does distribute over any finite sum:
  `d · ∑ aⱼ = ∑ d · aⱼ`, whatever the `aⱼ` are. This is what moves a per-row scale through a sum taken over the
  messages that arrive at that row: `(∑ⱼ aⱼ · sⱼ) · d = ∑ⱼ aⱼ · (sⱼ · d)` (`scaled_segment_sum`).

  The sums met here are the host's accumulating scatter (`x.at[idx].add(u)`): at the exact values its result at an
  entry is the operand's entry plus the sum of the updates that land there (`scatterAdd_apply`, over the set `hits`
  of those updates).

  The scale met here is an inverse square root of a count: a count is a nonnegative real, and the inverse square
  root of a positive real, or zero in its place when the count is zero, is again a nonnegative real
  (`IsNNReal.rsqrt_or_zero`).
-/
import Idealize.ShloMosaic.PureOps.Ideal.Laws

open scoped BigOperators

namespace Cert.LibSegScale

open Idealize.ShloMosaic

/-- A nonnegative real number, seen as an extended real. -/
def IsNNReal (x : EReal) : Prop := ∃ r : ℝ, 0 ≤ r ∧ x = (r : EReal)

theorem IsNNReal.zero : IsNNReal 0 := ⟨0, le_rfl, EReal.coe_zero.symm⟩

theorem IsNNReal.one : IsNNReal 1 := ⟨1, zero_le_one, EReal.coe_one.symm⟩

theorem IsNNReal.add {x y : EReal} (hx : IsNNReal x) (hy : IsNNReal y) : IsNNReal (x + y) := by
  obtain ⟨a, ha, rfl⟩ := hx
  obtain ⟨b, hb, rfl⟩ := hy
  exact ⟨a + b, add_nonneg ha hb, (EReal.coe_add a b).symm⟩

/-- A finite sum of nonnegative reals is a nonnegative real. -/
theorem IsNNReal.sum {J : Type} (S : Finset J) (f : J → EReal) (h : ∀ j ∈ S, IsNNReal (f j)) :
    IsNNReal (∑ j ∈ S, f j) := by
  classical
  induction S using Finset.induction_on with
  | empty => rw [Finset.sum_empty]; exact IsNNReal.zero
  | insert x s hx ih =>
    rw [Finset.sum_insert hx]
    exact (h x (Finset.mem_insert_self x s)).add (ih fun j hj => h j (Finset.mem_insert_of_mem hj))

theorem IsNNReal.nonneg {x : EReal} (h : IsNNReal x) : 0 ≤ x := by
  obtain ⟨r, hr, rfl⟩ := h
  exact_mod_cast hr

theorem IsNNReal.ne_top {x : EReal} (h : IsNNReal x) : x ≠ ⊤ := by
  obtain ⟨r, _, rfl⟩ := h
  exact EReal.coe_ne_top r

/-- The inverse square root of a positive count, zero in its place when the count is not positive: a nonnegative
    real either way. -/
theorem IsNNReal.rsqrt_or_zero {x : EReal} (h : IsNNReal x) : IsNNReal (if 0 < x then Ideal.rsqrt x else 0) := by
  obtain ⟨r, hr, rfl⟩ := h
  by_cases hpos : (0 : EReal) < (r : EReal)
  · rw [if_pos hpos]
    have hr0 : ¬ r < 0 := not_lt.mpr hr
    have hrne : r ≠ 0 := by
      rintro rfl
      exact absurd hpos (by simp)
    refine ⟨(Real.sqrt r)⁻¹, inv_nonneg.mpr (Real.sqrt_nonneg r), ?_⟩
    show (if r < 0 then (⊥ : EReal) else if r = 0 then ⊤ else (((Real.sqrt r)⁻¹ : ℝ) : EReal)) = _
    rw [if_neg hr0, if_neg hrne]
  · rw [if_neg hpos]
    exact IsNNReal.zero

/-- A nonnegative real factor distributes over a finite sum of extended reals. -/
theorem mul_sum_of_nnreal {J : Type} (S : Finset J) (d : EReal) (hd : IsNNReal d) (a : J → EReal) :
    d * ∑ j ∈ S, a j = ∑ j ∈ S, d * a j := by
  classical
  induction S using Finset.induction_on with
  | empty => rw [Finset.sum_empty, Finset.sum_empty, mul_zero]
  | insert x s hx ih =>
    rw [Finset.sum_insert hx, Finset.sum_insert hx, EReal.left_distrib_of_nonneg_of_ne_top hd.nonneg hd.ne_top, ih]

/-- The scale of the receiving row moved inside the sum over the messages it receives: with `z` the zero the sum
    starts from, `tⱼ = d` on the summed set and `d` a nonnegative real,
    `(z + ∑ⱼ aⱼ · sⱼ) · d = z + ∑ⱼ aⱼ · (sⱼ · tⱼ)`. -/
theorem scaled_segment_sum {J : Type} (S : Finset J) (a s t : J → EReal) (z d : EReal) (hz : z = 0)
    (hd : IsNNReal d) (ht : ∀ j ∈ S, t j = d) :
    (z + ∑ j ∈ S, a j * s j) * d = z + ∑ j ∈ S, a j * (s j * t j) := by
  subst hz
  rw [zero_add, zero_add, mul_comm, mul_sum_of_nnreal S d hd]
  refine Finset.sum_congr rfl fun j hj => ?_
  rw [ht j hj, mul_comm d, mul_assoc]

/-- The same with the two sums given term by term: if on the summed set `uKⱼ = aⱼ · sⱼ` and `uRⱼ = aⱼ · (sⱼ · tⱼ)` with
    `tⱼ = d`, then `(z + ∑ uK) · d = z + ∑ uR`. -/
theorem scaled_sum_bridge {J : Type} (S : Finset J) (uK uR a s t : J → EReal) (z d : EReal) (hz : z = 0)
    (hd : IsNNReal d) (hK : ∀ j ∈ S, uK j = a j * s j) (hR : ∀ j ∈ S, uR j = a j * (s j * t j))
    (ht : ∀ j ∈ S, t j = d) :
    (z + ∑ j ∈ S, uK j) * d = z + ∑ j ∈ S, uR j := by
  rw [Finset.sum_congr rfl hK, Finset.sum_congr rfl hR]
  exact scaled_segment_sum S a s t z d hz hd ht

/-! ## The accumulating scatter at the exact values -/

section Scatter

variable {s si su : Shape} {w : ℕ}

/-- The update positions that land on operand entry `i`. -/
def hits (d : ScatterDims s si su) (idx : IVec si w) (i : s.Idx) : Finset su.Idx :=
  Finset.univ.filter (fun j => d.resultIdx? j idx = some i)

theorem mem_hits (d : ScatterDims s si su) (idx : IVec si w) (i : s.Idx) (j : su.Idx) :
    j ∈ hits d idx i ↔ d.resultIdx? j idx = some i := by
  unfold hits
  rw [Finset.mem_filter]
  exact ⟨fun h => h.2, fun h => ⟨Finset.mem_univ _, h⟩⟩

/-- The accumulating scatter at an entry: the operand's entry plus the sum of the updates landing there. -/
theorem scatterAdd_apply {φ : FTy} (d : ScatterDims s si su) (x : FVec Ideal s φ) (idx : IVec si w)
    (upd : FVec Ideal su φ) (i : s.Idx) :
    Host.scatterAdd d x idx upd i = x i + ∑ j ∈ hits d idx i, upd j := rfl

/-- An accumulating scatter of nonnegative reals into nonnegative reals is a nonnegative real at every entry. -/
theorem scatterAdd_nn {φ : FTy} (d : ScatterDims s si su) (x : FVec Ideal s φ) (idx : IVec si w)
    (upd : FVec Ideal su φ) (hx : ∀ i, IsNNReal (x i)) (hu : ∀ j, IsNNReal (upd j)) (i : s.Idx) :
    IsNNReal (Host.scatterAdd d x idx upd i) := by
  rw [scatterAdd_apply]
  exact (hx i).add (IsNNReal.sum _ _ fun j _ => hu j)

end Scatter

attribute [irreducible] hits

/-- The entrywise maximum of an entrywise sum with a third array, read at an entry. -/
theorem maximumf_addf_apply {s : Shape} {φ : FTy} (A B Z : FVec Ideal s φ) (i : s.Idx) :
    maximumf (addf A B) Z i = FloatOps.maximumf (F := Ideal) (FloatOps.addf (F := Ideal) (A i) (B i)) (Z i) := rfl

/-- The float comparison at the exact values is the order's. -/
theorem cmpf_ideal {φ : FTy} (p : CmpFPredicate) (x y : Ideal φ) : FloatOps.cmpf (F := Ideal) p x y = Ideal.cmp p x y := rfl

/-- The comparison `x > 0` choosing between two values. -/
theorem select_gt_zero (x a b : EReal) :
    Scalar.select (Ideal.cmp .ogt x 0) a b = if 0 < x then a else b := by
  by_cases h : (0 : EReal) < x
  · simp [Scalar.select, Ideal.cmp, h]
  · simp [Scalar.select, Ideal.cmp, h]

end Cert.LibSegScale
-- ==== Proof.LibRowGather.lean ====
/-
  Rows gathered out of a table, read at coordinates.

  A table `[N, C]` indexed by an integer array gives, for every entry of the integer array, one row of the table:
  the entry is read as a signed integer and clamped into `[0, N - 1]` (`rowOf`), and the result holds that row's
  `C` entries along a new last axis. Two layouts of the integer array are read here: a column `[R, 1]` (result
  `[R, C]`) and a block `[A, B, 1]` (result `[A, B, C]`). Each lemma names the table's index by coordinates, so that
  it applies by unification at any literal extents.
-/
import Idealize.ShloMosaic.Lib.ValueIdx

namespace Cert.LibRowGather

open Idealize.ShloMosaic Idealize.ShloMosaic.ValueIdx

variable {α : Type}

/-- The row of a table of `N` rows that a start word names: the word read as a signed integer, clamped into
    `[0, N - 1]`. -/
def rowOf (N : ℕ) (hN : 0 < N) {w : ℕ} (v : BitVec w) : Fin N := ⟨min v.toInt.toNat (N - 1), by omega⟩

/-- An axis of a two-axis array is the first or the second. -/
theorem two_cases (a : Fin 2) : a = 0 ∨ a = 1 := by
  rcases a with ⟨v, hv⟩
  rcases (by omega : v = 0 ∨ v = 1) with rfl | rfl
  · exact Or.inl rfl
  · exact Or.inr rfl

/-! ## Start words in a column `[R, 1]` -/

/-- The dimension numbers of `table[idx]` for a table `[N, C]` and start words `[R, 1]`: the table's row axis is
    indexed and collapsed, its column axis is copied whole to the result's last axis. -/
abbrev rowDims (N C R : ℕ) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The gather read at `(r, e)`: entry `e` of the table's row named by the start word of position `r`. -/
theorem rowGather_apply {N C R w : ℕ} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (e : Fin C) :
    Host.gather (rowDims N C R wf) x idx (ix2 r e) = x (ix2 (rowOf N hN (idx (ix2 r (0 : Fin 1)))) e) := by
  unfold Host.gather
  congr 1
  funext a
  refine Fin.ext ?_
  show (rowDims N C R wf).start (ix2 r e) idx a + (rowDims N C R wf).batchCoord (ix2 r e) a
    + (rowDims N C R wf).offCoord (ix2 r e) a = _
  rw [GatherDims.batchCoord_eq_zero _ _ _ List.not_mem_nil]
  rcases two_cases a with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C R wf).startIndexMap from List.mem_singleton.mpr rfl)]
    have hsi : (rowDims N C R wf).siIdx (ix2 r e) ⟨List.idxOf (0 : Fin 2) (rowDims N C R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  · have hs : (1 : Fin 2) ∉ (rowDims N C R wf).startIndexMap := (by decide : (1 : Fin 2) ∉ ([0] : List (Fin 2)))
    have hk : (1 : Fin 2) ∈ (rowDims N C R wf).sKept :=
      (by decide : (1 : Fin 2) ∈ (List.finRange 2).filter (· ∉ ([0] : List (Fin 2)) ++ []))
    unfold GatherDims.start
    rw [dif_neg hs]
    unfold GatherDims.offCoord
    rw [dif_pos hk]
    show 0 + 0 + e.val = e.val
    omega

/-! ## Start words in a block `[A, B, 1]` -/

/-- The same for start words `[A, B, 1]`: the result is `[A, B, C]`. -/
abbrev rowDims3 (N C A B : ℕ)
    (wf : GatherDims.WF ⟨2, ![N, C]⟩ ⟨3, ![A, B, 1]⟩ ⟨3, ![A, B, C]⟩ [2] [0] [] [0] [] 2 ![1, C]) :
    GatherDims ⟨2, ![N, C]⟩ ⟨3, ![A, B, 1]⟩ ⟨3, ![A, B, C]⟩ where
  offsetDims := [2]
  collapsedSliceDims := [0]
  operandBatchingDims := []
  startIndicesBatchingDims := []
  startIndexMap := [0]
  indexVectorDim := 2
  sliceSizes := ![1, C]
  wf := wf

/-- The gather read at `(a, b, e)`: entry `e` of the table's row named by the start word of position `(a, b)`. -/
theorem rowGather3_apply {N C A B w : ℕ} (hN : 0 < N)
    (wf : GatherDims.WF ⟨2, ![N, C]⟩ ⟨3, ![A, B, 1]⟩ ⟨3, ![A, B, C]⟩ [2] [0] [] [0] [] 2 ![1, C])
    (x : (⟨2, ![N, C]⟩ : Shape).Idx → α) (idx : IVec ⟨3, ![A, B, 1]⟩ w) (a : Fin A) (b : Fin B) (e : Fin C) :
    Host.gather (rowDims3 N C A B wf) x idx (ix3 a b e) = x (ix2 (rowOf N hN (idx (ix3 a b (0 : Fin 1)))) e) := by
  unfold Host.gather
  congr 1
  funext ax
  refine Fin.ext ?_
  show (rowDims3 N C A B wf).start (ix3 a b e) idx ax + (rowDims3 N C A B wf).batchCoord (ix3 a b e) ax
    + (rowDims3 N C A B wf).offCoord (ix3 a b e) ax = _
  rw [GatherDims.batchCoord_eq_zero _ _ _ List.not_mem_nil]
  rcases two_cases ax with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims3 N C A B wf).startIndexMap from List.mem_singleton.mpr rfl)]
    have hsi : (rowDims3 N C A B wf).siIdx (ix3 a b e) ⟨List.idxOf (0 : Fin 2) (rowDims3 N C A B wf).startIndexMap,
        List.idxOf_lt_length_iff.2 (List.mem_singleton.mpr rfl)⟩ = ix3 a b (0 : Fin 1) := by
      funext d; refine Fin.ext ?_
      match d with
      | ⟨0, _⟩ => rfl
      | ⟨1, _⟩ => rfl
      | ⟨2, _⟩ => rfl
    rw [hsi]
    rfl
  · have hs : (1 : Fin 2) ∉ (rowDims3 N C A B wf).startIndexMap := (by decide : (1 : Fin 2) ∉ ([0] : List (Fin 2)))
    have hk : (1 : Fin 2) ∈ (rowDims3 N C A B wf).sKept :=
      (by decide : (1 : Fin 2) ∈ (List.finRange 2).filter (· ∉ ([0] : List (Fin 2)) ++ []))
    unfold GatherDims.start
    rw [dif_neg hs]
    unfold GatherDims.offCoord
    rw [dif_pos hk]
    show 0 + 0 + e.val = e.val
    omega

end Cert.LibRowGather
-- ==== Proof.LibSegIdx.lean ====
/-
  Which row an index word names, for the two indexed operations of a message-passing layer.

  * Entries gathered out of a vector `[N]` at start words laid out as a column `[R, 1]`: entry `r` of the result is
    the vector's entry at the start word of position `r`, read signed and clamped into `[0, N - 1]`
    (`vecGather_apply`; the row is `Cert.LibRowGather.rowOf`, as for a table of rows).
  * Rows of updates `[R, C]` added into a table `[N, C]` at scatter words `[R, 1]`: if update `(e, k')` lands on
    table entry `(n, k)`, then the scatter word of position `e`, read signed, is `n` — it is not clamped, an update
    whose word is out of range lands nowhere (`rowScatter_hit`).
  * A word that is a row number already is left alone by the wrap of negative words (`w < 0 ? w + N : w`), and
    names that row (`wrap_of_nonneg`, `rowOf_of_toInt`).
-/
import proofs.«149602_j52415780880534_2_alg».proof.Proof.LibRowGather
import Idealize.ShloMosaic.Lib.ValueIdx
import Idealize.ShloMosaic.PureOps.Ideal.Laws

namespace Cert.LibSegIdx

open Idealize.ShloMosaic Idealize.ShloMosaic.ValueIdx Cert.LibRowGather

variable {α : Type}

/-! ## Entries of a vector at start words `[R, 1]` -/

/-- The dimension numbers of `v[idx]` for a vector `[N]` and start words `[R, 1]`: the vector's one axis is indexed
    and collapsed. -/
abbrev vecDims (N R : ℕ) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The gather read at `r`: the vector's entry named by the start word of position `r`. -/
theorem vecGather_apply {N R w : ℕ} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (vecDims N R wf) x idx (ix1 r) = x (ix1 (rowOf N hN (idx (ix2 r (0 : Fin 1))))) := by
  unfold Host.gather
  congr 1
  funext a
  refine Fin.ext ?_
  show (vecDims N R wf).start (ix1 r) idx a + (vecDims N R wf).batchCoord (ix1 r) a
    + (vecDims N R wf).offCoord (ix1 r) a = _
  rw [GatherDims.batchCoord_eq_zero _ _ _ List.not_mem_nil]
  obtain rfl : a = (0 : Fin 1) := Fin.ext (Nat.lt_one_iff.mp a.isLt)
  rw [GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N R wf).startIndexMap from List.mem_singleton.mpr rfl)]
  have hsi : (vecDims N R wf).siIdx (ix1 r) ⟨List.idxOf (0 : Fin 1) (vecDims N R wf).startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

/-! ## Rows added into a table at scatter words `[R, 1]` -/

/-- The dimension numbers of `table.at[idx].add(updates)` for a table `[N, C]`, scatter words `[R, 1]` and updates
    `[R, C]`: the word names the table's row, the update's second axis is the row's. -/
abbrev rowScatterDims (N C R : ℕ) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- If update `j` lands on table entry `i`, the scatter word of `j`'s row, read signed, is `i`'s row. -/
theorem rowScatter_hit {N C R w : ℕ} (wf : ScatterDims.WF ⟨2, ![N, C]⟩ ⟨2, ![R, 1]⟩ ⟨2, ![R, C]⟩ [1] [0] [0] 1)
    (idx : IVec ⟨2, ![R, 1]⟩ w) (j : (⟨2, ![R, C]⟩ : Shape).Idx) (i : (⟨2, ![N, C]⟩ : Shape).Idx)
    (h : (rowScatterDims N C R wf).resultIdx? j idx = some i) :
    (idx (ix2 (n0 := R) (n1 := 1) (j 0) (0 : Fin 1))).toInt = ((i 0).val : ℤ) := by
  unfold ScatterDims.resultIdx? at h
  split at h
  · rename_i hall
    have hi := Option.some.inj h
    have h0 := hall 0
    have e0 : ((i 0).val : ℤ) = (rowScatterDims N C R wf).start j idx 0 + ((rowScatterDims N C R wf).window j 0 : ℤ) := by
      rw [← hi]
      exact Int.toNat_of_nonneg h0.1
    have hk : (0 : Fin 2) ∉ (rowScatterDims N C R wf).sKept :=
      (by decide : (0 : Fin 2) ∉ (List.finRange 2).filter (· ∉ ([0] : List (Fin 2))))
    have hw : (rowScatterDims N C R wf).window j 0 = 0 := by
      unfold ScatterDims.window
      rw [dif_neg hk]
    have hs : (rowScatterDims N C R wf).start j idx 0 = (idx (ix2 (n0 := R) (n1 := 1) (j 0) (0 : Fin 1))).toInt := by
      unfold ScatterDims.start
      rw [dif_pos (show (0 : Fin 2) ∈ (rowScatterDims N C R wf).scatterDimsToOperandDims from List.mem_singleton.mpr rfl)]
      have hsi : (rowScatterDims N C R wf).siIdx j ⟨List.idxOf (0 : Fin 2) (rowScatterDims N C R wf).scatterDimsToOperandDims,
          List.idxOf_lt_length_iff.2 (List.mem_singleton.mpr rfl)⟩ = ix2 (n0 := R) (n1 := 1) (j 0) (0 : Fin 1) := by
        funext b; refine Fin.ext ?_
        match b with
        | ⟨0, _⟩ => rfl
        | ⟨1, _⟩ => rfl
      rw [hsi]
    rw [e0, hs, hw]
    simp
  · cases h

/-! ## Words that are row numbers -/

/-- A word whose signed value is not negative is left alone by the wrap of negative words. -/
theorem wrap_of_nonneg (x y : BitVec 32) (hx : 0 ≤ x.toInt) :
    Scalar.select (IntOp.cmpi .slt x 0#32) y x = x := by
  unfold Scalar.select IntOp.cmpi
  have hs : x.slt 0#32 = false := by
    rw [BitVec.slt]
    simp only [BitVec.toInt_zero, decide_eq_false_iff_not, not_lt]
    exact hx
  simp only [hs]
  rfl

/-- A word whose signed value is the row number `n` names row `n`. -/
theorem rowOf_of_toInt {N w : ℕ} (hN : 0 < N) (v : BitVec w) (n : Fin N) (hv : v.toInt = (n.val : ℤ)) :
    rowOf N hN v = n := by
  refine Fin.ext ?_
  show min v.toInt.toNat (N - 1) = n.val
  rw [hv, Int.toNat_natCast]
  have := n.isLt
  omega

end Cert.LibSegIdx
-- ==== Proof.Bridge.lean ====
/-
  The kernel's function of the arguments is the reference's.

  Both programs are two message-passing layers, a mean pooling and a linear map, and they differ in one place. With
  `d(n) = 1/√deg(n)` the per-node scale (zero where the degree is zero), `s(e), t(e)` the source and target of edge
  `e` and `H = x · W`, the reference adds up at node `n` the messages `H(s(e)) · (d(s(e)) · d(t(e)))` over the edges
  with `t(e) = n`, while the kernel scales the rows first, adds up `H(s(e)) · d(s(e))`, and multiplies the sum by
  `d(n)`. An edge whose target word is `n` has `d(t(e)) = d(n)`; and `d(n)` is a nonnegative REAL number (a degree
  is a count), so it distributes over the sum whatever the summands are (`Cert.LibSegScale.scaled_segment_sum`):
  the two sums agree on all extended reals, and the finiteness of the float inputs is not needed.
  Everything else — the edge lists, the scale, the bias and the rectifier, the pooling, the products rows by
  columns — is the same function on both sides, read index by index.
-/
import proofs.«149602_j52415780880534_2_alg».proof.Proof.RSpec
import proofs.«149602_j52415780880534_2_alg».proof.Proof.LibSegScale
import proofs.«149602_j52415780880534_2_alg».proof.Proof.LibSegIdx
import proofs.«149602_j52415780880534_2_alg».proof.Proof.LibLayout
import proofs.«149602_j52415780880534_2_alg».proof.Proof.LibPlainProduct
import Idealize.ShloMosaic.Lib.ValueIdx
import Idealize.ShloMosaic.Lib.ValueLayout
import Idealize.ShloMosaic.Lib.IdealHost
import Idealize.ShloMosaic.PureOps.Ideal.Laws

set_option maxRecDepth 16384

noncomputable section

open scoped BigOperators

namespace Cert.ReferenceIdeal.Bridge

open Cert.ReferenceIdeal Cert.ReferenceIdeal.Gen Cert.ReferenceIdeal.ReadP Cert.ReferenceIdeal.RSpec
open Idealize.ShloMosaic Idealize.ShloMosaic.ValueIdx Idealize.ShloMosaic.PlainProduct
open Cert.KAct Cert.LibSegScale Cert.LibSegIdx Cert.LibRowGather

/-! ## The per-node scale is a nonnegative real -/

/-- A node's degree — zero plus a one for every edge arriving — is a nonnegative real. -/
theorem deg_nn (e : IVec S2x800000 32) (i : S50000.Idx) : IsNNReal (val_main_v10 (F := Ideal) e i) := by
  unfold val_main_v10
  refine scatterAdd_nn _ _ _ _ (fun i => ?_) (fun j => ?_) i
  · rw [val_main_v8_apply, val_main_cst_0_apply, Ideal.ofBits_def, Ideal.ofBits_zero_f32]
    exact IsNNReal.zero
  · rw [val_main_v7_apply, val_main_cst_apply, Ideal.ofBits_def, Ideal.ofBits_one_f32]
    exact IsNNReal.one

/-- The per-node scale is a nonnegative real. -/
theorem dis_nn (e : IVec S2x800000 32) (i : S50000.Idx) : IsNNReal (dis e i) := by
  unfold dis
  rw [val_main_v14_apply, val_main_v12_apply, val_main_v13_apply, val_main_v11_apply, val_main_cst_1_apply,
    val_main_call0_v1_apply, val_main_call0_v0_apply, val_main_cst_2_apply, Ideal.ofBits_def, Ideal.ofBits_zero_f32,
    cmpf_ideal, Ideal.hostUnary_rsqrt_def, select_gt_zero]
  exact (deg_nn e i).rsqrt_or_zero

/-! ## The dimension records as the plain ones -/

theorem gatherRows_eq : gather_S50000x128_S850000x1_S850000x128_1_0_n_n_0_1_1128
    = rowDims 50000 128 850000 Cert.ReferenceIdeal.Gen.gather_S50000x128_S850000x1_S850000x128_1_0_n_n_0_1_1128_wf := rfl

theorem gatherVec_eq : gather_S50000_S850000x1_S850000_n_0_n_n_0_1_1
    = vecDims 50000 850000 Cert.ReferenceIdeal.Gen.gather_S50000_S850000x1_S850000_n_0_n_n_0_1_1_wf := rfl

theorem scatterRows_eq : scatter_S50000x128_S850000x1_S850000x128_1_0_0_1
    = rowScatterDims 50000 128 850000 Cert.ReferenceIdeal.Gen.scatter_S50000x128_S850000x1_S850000x128_1_0_0_1_wf := rfl

theorem dotLayer_eq : dot_S50000x128_S128x128_S50000x128_1_0_0_1_n_n = DotDims.plain 50000 128 128 := rfl

theorem dotFinal_eq : dot_S64x128_S128x16_S64x16_1_0_0_1_n_n = DotDims.plain 64 128 16 := rfl

/-! ## The edge words -/

/-- The source row of edge `r`: its wrapped source word, clamped into the table. -/
def srcRow (e : IVec S2x800000 32) (r : Fin 850000) : Fin 50000 :=
  rowOf 50000 (by decide) (val_main_v36 (F := Ideal) e (ix2 r (0 : Fin 1)))

/-- The reference's per-edge norm at an update position: the scale of the edge's source row times the scale of
    the row its wrapped target word names. -/
theorem norm_apply (e : IVec S2x800000 32) (r : Fin 850000) (q : Fin 128) :
    val_main_v39 (F := Ideal) e (ix2 r q)
      = dis e (ix1 (srcRow e r))
        * dis e (ix1 (rowOf 50000 (by decide) (val_main_v28 (F := Ideal) e (ix2 r (0 : Fin 1))))) := by
  have hidx : idx_main_v38 (idx_main_v39 (ix2 (n0 := 850000) (n1 := 128) r q)) = ix1 r :=
    funext fun a => Fin.ext (by match a with | ⟨0, _⟩ => rfl)
  rw [val_main_v39_apply, val_main_v38_apply, hidx, val_main_v30_apply, Ideal.mulf_def]
  unfold val_main_v22 val_main_v29
  rw [gatherVec_eq, vecGather_apply (by decide), vecGather_apply (by decide)]
  rfl

/-- An update landing on row `n` has the target scale `d(n)`. -/
theorem target_scale (e : IVec S2x800000 32) (j : S850000x128.Idx) (n : Fin 50000) (k : Fin 128)
    (h : scatter_S50000x128_S850000x1_S850000x128_1_0_0_1.resultIdx? j (val_main_v42 (F := Ideal) e) = some (ix2 n k)) :
    rowOf 50000 (by decide) (val_main_v28 (F := Ideal) e (ix2 (j 0) (0 : Fin 1))) = n := by
  rw [scatterRows_eq] at h
  have hw := rowScatter_hit _ _ j (ix2 n k) h
  rw [val_main_v42_apply] at hw
  rw [val_main_v28_apply, val_main_v27_apply, val_main_v24_apply, val_main_v23_apply, val_main_c_4_apply]
  have hi : idx_main_v28 (ix2 (n0 := 850000) (n1 := 1) (j 0) (0 : Fin 1)) = idx_main_v42 (ix2 (n0 := 850000) (n1 := 1) (j 0) (0 : Fin 1)) := rfl
  rw [hi]
  have hn : (0 : ℤ) ≤ (val_main_v6 (F := Ideal) e (idx_main_v42 (ix2 (n0 := 850000) (n1 := 1) (j 0) (0 : Fin 1)))).toInt := by
    rw [hw]; exact Int.natCast_nonneg _
  rw [wrap_of_nonneg _ _ hn]
  exact rowOf_of_toInt (by decide) _ n hw

/-! ## One layer: scale, aggregate, scale — against aggregate with the per-edge norm -/

/-- THE LAW OF A LAYER, at entry `(n, k)`: the aggregate of the rows scaled by the source scale, times the scale of
    row `n`, is the aggregate of the rows times the per-edge norm. -/
theorem layer_law (e : IVec S2x800000 32) (H : FVec Ideal S50000x128 .f32) (n : Fin 50000) (k : Fin 128) :
    aggOf e (fun i => H i * dis e (ix1 (n := 50000) (i 0))) (ix2 n k) * dis e (ix1 n)
      = Host.scatterAdd scatter_S50000x128_S850000x1_S850000x128_1_0_0_1 (val_main_v41 (F := Ideal)) (val_main_v42 (F := Ideal) e)
          (mulf (Host.gather gather_S50000x128_S850000x1_S850000x128_1_0_n_n_0_1_1128 H (val_main_v36 (F := Ideal) e))
            (val_main_v39 (F := Ideal) e)) (ix2 n k) := by
  unfold aggOf
  rw [scatterAdd_apply, scatterAdd_apply]
  have hz : val_main_v41 (F := Ideal) (ix2 n k) = 0 := by
    rw [val_main_v41_apply, val_main_cst_8_apply, Ideal.ofBits_def, Ideal.ofBits_zero_f32]
  have hK : ∀ j : S850000x128.Idx,
      Host.gather gather_S50000x128_S850000x1_S850000x128_1_0_n_n_0_1_1128 (fun i => H i * dis e (ix1 (n := 50000) (i 0))) (val_main_v36 (F := Ideal) e) j
        = H (ix2 (srcRow e (j 0)) (j 1)) * dis e (ix1 (srcRow e (j 0))) := by
    intro j
    obtain ⟨r, q, rfl⟩ : ∃ (r : Fin 850000) (q : Fin 128), j = ix2 r q := ⟨j 0, j 1, eq_ix2 j⟩
    rw [gatherRows_eq, rowGather_apply (by decide)]
    rfl
  have hR : ∀ j : S850000x128.Idx,
      mulf (Host.gather gather_S50000x128_S850000x1_S850000x128_1_0_n_n_0_1_1128 H (val_main_v36 (F := Ideal) e)) (val_main_v39 (F := Ideal) e) j
        = H (ix2 (srcRow e (j 0)) (j 1)) * (dis e (ix1 (srcRow e (j 0)))
            * dis e (ix1 (rowOf 50000 (by decide) (val_main_v28 (F := Ideal) e (ix2 (j 0) (0 : Fin 1)))))) := by
    intro j
    obtain ⟨r, q, rfl⟩ : ∃ (r : Fin 850000) (q : Fin 128), j = ix2 r q := ⟨j 0, j 1, eq_ix2 j⟩
    unfold mulf
    rw [Ideal.mulf_def, gatherRows_eq, rowGather_apply (by decide), norm_apply]
    rfl
  have ht : ∀ j ∈ hits scatter_S50000x128_S850000x1_S850000x128_1_0_0_1 (val_main_v42 (F := Ideal) e) (ix2 n k),
      dis e (ix1 (rowOf 50000 (by decide) (val_main_v28 (F := Ideal) e (ix2 (j 0) (0 : Fin 1))))) = dis e (ix1 n) := by
    intro j hj
    rw [target_scale e j n k ((mem_hits _ _ _ _).mp hj)]
  exact scaled_sum_bridge
    (hits scatter_S50000x128_S850000x1_S850000x128_1_0_0_1 (val_main_v42 (F := Ideal) e) (ix2 n k))
    (Host.gather gather_S50000x128_S850000x1_S850000x128_1_0_n_n_0_1_1128 (fun i => H i * dis e (ix1 (n := 50000) (i 0))) (val_main_v36 (F := Ideal) e))
    (mulf (Host.gather gather_S50000x128_S850000x1_S850000x128_1_0_n_n_0_1_1128 H (val_main_v36 (F := Ideal) e)) (val_main_v39 (F := Ideal) e))
    (fun j => H (ix2 (srcRow e (j 0)) (j 1))) (fun j => dis e (ix1 (srcRow e (j 0))))
    (fun j => dis e (ix1 (rowOf 50000 (by decide) (val_main_v28 (F := Ideal) e (ix2 (j 0) (0 : Fin 1))))))
    (val_main_v41 (F := Ideal) (ix2 n k)) (dis e (ix1 n)) hz (dis_nn e (ix1 n))
    (fun j _ => hK j) (fun j _ => hR j) ht

/-- The scaled product is the reference's product with every row scaled. -/
theorem scaledProduct_eq (e : IVec S2x800000 32) (X : FVec Ideal S50000x128 .f32) (W : FVec Ideal S128x128 .f32) :
    scaledProduct X W (disCol e)
      = fun i => Host.dotGeneral dot_S50000x128_S128x128_S50000x128_1_0_0_1_n_n none X W i * dis e (ix1 (n := 50000) (i 0)) := by
  funext i
  obtain ⟨n, q, rfl⟩ : ∃ (n : Fin 50000) (q : Fin 128), i = ix2 n q := ⟨i 0, i 1, eq_ix2 i⟩
  rw [scaledProduct_apply]
  unfold disCol Host.dotGeneral
  rw [Cert.LibLayout.shapeCast_a_a1_apply, dotLayer_eq, dotGeneral_plain]

/-- The bias row repeated down the rows, read at an entry. -/
theorem biasRows_apply (b : FVec Ideal S128 .f32) (n : Fin 50000) (k : Fin 128) :
    val_main_v45 (F := Ideal) b (ix2 n k) = b (ix1 k) := by
  rw [val_main_v45_apply, val_main_v44_apply]
  exact congrArg b (funext fun a => Fin.ext (by match a with | ⟨0, _⟩ => rfl))

/-- The rectifier's zero array, read at an entry. -/
theorem zeroRows_apply (i : S50000x128.Idx) :
    val_main_call1_v0 (F := Ideal) i = FloatOps.ofBits (F := Ideal) .f32 0x00000000#32 := by
  rw [val_main_call1_v0_apply, val_main_call1_cst_apply]

/-- ONE LAYER: the kernel's `max (aggOf (scaled product) · d + b) 0` is the reference's
    `max (aggregate of (product · norm) + b) 0`. -/
theorem layer_eq (e : IVec S2x800000 32) (X : FVec Ideal S50000x128 .f32) (W : FVec Ideal S128x128 .f32)
    (b : FVec Ideal S128 .f32) :
    act (R := 50000) (aggOf e (scaledProduct X W (disCol e))) (disCol e) (shapeCast S1x128 b)
      = maximumf (addf
          (Host.scatterAdd scatter_S50000x128_S850000x1_S850000x128_1_0_0_1 (val_main_v41 (F := Ideal)) (val_main_v42 (F := Ideal) e)
            (mulf (Host.gather gather_S50000x128_S850000x1_S850000x128_1_0_n_n_0_1_1128
                (Host.dotGeneral dot_S50000x128_S128x128_S50000x128_1_0_0_1_n_n none X W) (val_main_v36 (F := Ideal) e))
              (val_main_v39 (F := Ideal) e)))
          (val_main_v45 (F := Ideal) b)) (val_main_call1_v0 (F := Ideal)) := by
  funext i
  obtain ⟨n, k, rfl⟩ : ∃ (n : Fin 50000) (k : Fin 128), i = ix2 n k := ⟨i 0, i 1, eq_ix2 i⟩
  have e1 : aggOf e (scaledProduct X W (disCol e)) (ix2 n k) * disCol e (ix2 n (0 : Fin 1))
      = Host.scatterAdd scatter_S50000x128_S850000x1_S850000x128_1_0_0_1 (val_main_v41 (F := Ideal)) (val_main_v42 (F := Ideal) e)
          (mulf (Host.gather gather_S50000x128_S850000x1_S850000x128_1_0_n_n_0_1_1128
              (Host.dotGeneral dot_S50000x128_S128x128_S50000x128_1_0_0_1_n_n none X W) (val_main_v36 (F := Ideal) e))
            (val_main_v39 (F := Ideal) e)) (ix2 n k) := by
    rw [scaledProduct_eq]
    unfold disCol
    rw [Cert.LibLayout.shapeCast_a_a1_apply]
    exact layer_law e (Host.dotGeneral dot_S50000x128_S128x128_S50000x128_1_0_0_1_n_n none X W) n k
  have e2 : (shapeCast S1x128 b) (ix2 (0 : Fin 1) k) = val_main_v45 (F := Ideal) b (ix2 n k) := by
    rw [biasRows_apply, shapeCast_a_1a_apply]
  have e3 : FloatOps.ofBits (F := Ideal) .f32 0x00000000#32 = val_main_call1_v0 (F := Ideal) (ix2 n k) :=
    (zeroRows_apply _).symm
  rw [act_apply_ops, e1, e2, e3]
  exact (maximumf_addf_apply _ _ _ _).symm

/-! ## The second layer's stages are the first layer's, under other names -/

theorem wrapSrc2_eq (e : IVec S2x800000 32) : val_main_v69 (F := Ideal) e = val_main_v36 (F := Ideal) e := rfl
theorem dstIdx2_eq (e : IVec S2x800000 32) : val_main_v75 (F := Ideal) e = val_main_v42 (F := Ideal) e := rfl
theorem zero2_eq : val_main_v74 (F := Ideal) = val_main_v41 (F := Ideal) := rfl
theorem wrapSrcN2_eq (e : IVec S2x800000 32) : val_main_v54 (F := Ideal) e = val_main_v21 (F := Ideal) e := rfl
theorem wrapDstN2_eq (e : IVec S2x800000 32) : val_main_v61 (F := Ideal) e = val_main_v28 (F := Ideal) e := rfl
theorem norm2_eq (e : IVec S2x800000 32) : val_main_v72 (F := Ideal) e = val_main_v39 (F := Ideal) e := by
  unfold val_main_v72 val_main_v71 val_main_v63 val_main_v55 val_main_v62 val_main_v39 val_main_v38 val_main_v30 val_main_v22
    val_main_v29
  rw [wrapSrcN2_eq, wrapDstN2_eq]
theorem bias2_eq (b : FVec Ideal S128 .f32) : val_main_v78 (F := Ideal) b = val_main_v45 (F := Ideal) b := rfl
theorem zeroRows2_eq : val_main_call2_v0 (F := Ideal) = val_main_call1_v0 (F := Ideal) := rfl

/-! ## The whole function -/

/-- The first layer, in the reference's name for it. -/
theorem layer1_eq (x0 : FVec Ideal S50000x128 .f32) (x1 : IVec S2x800000 32) (x3 : FVec Ideal S128x128 .f32)
    (x4 : FVec Ideal S128 .f32) :
    act (R := 50000) (aggOf x1 (scaledProduct x0 x3 (disCol x1))) (disCol x1) (shapeCast S1x128 x4)
      = val_main_v47 (F := Ideal) x0 x1 x3 x4 := by
  rw [layer_eq]
  unfold val_main_v47 val_main_v46 val_main_v43 val_main_v40 val_main_v37 val_main_v15
  rfl

/-- The second layer, in the reference's name for it. -/
theorem layer2_eq (x0 : FVec Ideal S50000x128 .f32) (x1 : IVec S2x800000 32) (x3 : FVec Ideal S128x128 .f32)
    (x4 : FVec Ideal S128 .f32) (x5 : FVec Ideal S128x128 .f32) (x6 : FVec Ideal S128 .f32) :
    act (R := 50000) (aggOf x1 (scaledProduct (val_main_v47 (F := Ideal) x0 x1 x3 x4) x5 (disCol x1))) (disCol x1)
        (shapeCast S1x128 x6)
      = val_main_v80 (F := Ideal) x0 x1 x3 x4 x5 x6 := by
  rw [layer_eq]
  unfold val_main_v80 val_main_v79 val_main_v76 val_main_v73 val_main_v70 val_main_v48
  rw [wrapSrc2_eq, dstIdx2_eq, zero2_eq, norm2_eq, bias2_eq, zeroRows2_eq]

/-- The kernel's function of the arguments is the reference's. -/
theorem kernelOut_eq (x0 : FVec Ideal S50000x128 .f32) (x1 : IVec S2x800000 32) (x2 : IVec S50000 32)
    (x3 : FVec Ideal S128x128 .f32) (x4 : FVec Ideal S128 .f32) (x5 : FVec Ideal S128x128 .f32) (x6 : FVec Ideal S128 .f32)
    (x7 : FVec Ideal S128x16 .f32) (x8 : FVec Ideal S16 .f32) :
    kernelOut (disCol x1) x0 x1 x2 x3 x4 x5 x6 x7 x8 = val_main_v96 (F := Ideal) x0 x1 x2 x3 x4 x5 x6 x7 x8 := by
  unfold kernelOut
  rw [layer1_eq x0 x1 x3 x4, layer2_eq x0 x1 x3 x4 x5 x6]
  funext i
  obtain ⟨g, o, rfl⟩ : ∃ (g : Fin 64) (o : Fin 16), i = ix2 g o := ⟨i 0, i 1, eq_ix2 i⟩
  have hb : val_main_v95 (F := Ideal) x8 (ix2 g o) = x8 (ix1 o) := by
    rw [val_main_v95_apply, val_main_v94_apply]
    exact congrArg x8 (funext fun a => Fin.ext (by match a with | ⟨0, _⟩ => rfl))
  rw [affine_apply, shapeCast_a_1a_apply, val_main_v96_apply, Ideal.addf_def, hb]
  unfold val_main_v93 Host.dotGeneral val_main_v92 val_main_v83 poolOf
  rw [dotFinal_eq, dotGeneral_plain]

end Cert.ReferenceIdeal.Bridge

end
-- ==== Proof.lean ====
/-
  The certificate of a two-layer graph convolution with mean pooling and a final linear map, against its jnp
  reference, at the exact values.

  The kernel program is four grid regions (the dense stages: a scaled product; an activation, a product and a scale;
  an activation; the final linear map) among host operations (the edge lists, the per-node scale `d = 1/√deg`, the
  gathers and accumulating scatters over the edges, the pooling). The reference is host operations only and applies the
  per-edge norm `d(source) · d(target)` to every message before adding the messages up.

  * The three frames: the kernel's two are the generated frames; the reference's is its run with the result dropped.
  * The idealization rewrote nothing, so `preserves` asks nothing.
  * `algebraic`: the kernel's result array is the fold through its program (`KRun.run_out`), which is
    `RSpec.kernelOut` of the arguments (`KChain.result`: each region's blocks are the blocks of one whole-array
    function, `KReg0 … KReg3`); the reference's result is its last stage `val_main_v96` of the arguments; and the two
    are one function (`Bridge.kernelOut_eq`): the scale of the receiving node is a nonnegative real, so it moves
    through the sum over the arriving messages. No finiteness of the inputs is used.
-/
import proofs.«149602_j52415780880534_2_alg».proof.Defs
import proofs.«149602_j52415780880534_2_alg».proof.Proof.Gen.Kernel
import proofs.«149602_j52415780880534_2_alg».proof.Proof.Gen.Kernel.Skeleton
import proofs.«149602_j52415780880534_2_alg».proof.Proof.Gen.Kernel.Launch
import proofs.«149602_j52415780880534_2_alg».proof.Proof.Gen.Kernel.Points
import proofs.«149602_j52415780880534_2_alg».proof.Proof.Gen.Kernel.Frame
import proofs.«149602_j52415780880534_2_alg».proof.Proof.Gen.KernelIdeal
import proofs.«149602_j52415780880534_2_alg».proof.Proof.Gen.KernelIdeal.Skeleton
import proofs.«149602_j52415780880534_2_alg».proof.Proof.Gen.KernelIdeal.Launch
import proofs.«149602_j52415780880534_2_alg».proof.Proof.Gen.KernelIdeal.Points
import proofs.«149602_j52415780880534_2_alg».proof.Proof.Gen.KernelIdeal.Frame
import proofs.«149602_j52415780880534_2_alg».proof.Proof.Gen.ReferenceIdeal
import proofs.«149602_j52415780880534_2_alg».proof.Proof.Gen.Pre_finite_inputs
import proofs.«149602_j52415780880534_2_alg».proof.Proof.RefRun
import proofs.«149602_j52415780880534_2_alg».proof.Proof.RefRead
import proofs.«149602_j52415780880534_2_alg».proof.Proof.KRun
import proofs.«149602_j52415780880534_2_alg».proof.Proof.KChainD
import proofs.«149602_j52415780880534_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both programs end at `kernelOut` of the arguments: the kernel by its fold, the reference by the layer law. -/
theorem algebraic : Cert.algebraic_KernelIdeal_ReferenceIdeal := by
  intro m ρ m' ρ' _ hagree
  refine ⟨fun c => Cert.ReferenceIdeal.RSpec.kernelOut (Cert.ReferenceIdeal.RSpec.disCol (m ((c.tc : Thread Cert.KernelIdeal.nD Cert.KernelIdeal.τ).loc Cert.KernelIdeal.main_arg1))) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
    (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.KChain.result m ρ c), (h c).2⟩)
      (Cert.KernelIdeal.KRun.run_out m ρ)
  · refine (θ_run Cert.ReferenceIdeal.defs _ _).mono (fun _ h c => ⟨(h c).1.trans ?_, (h c).2⟩)
      (Cert.ReferenceIdeal.ValueP.run (F := Ideal) m' ρ')
    obtain ⟨h0, h1, h2, h3, h4, h5, h6, h7, h8⟩ := hagree c
    rw [Cert.ReferenceIdeal.ReadP.val_main_v96_eq, h0, h1, h2, h3, h4, h5, h6, h7, h8]
    exact (Cert.ReferenceIdeal.Bridge.kernelOut_eq _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
